-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128x10 .f32) (main_arg8 : FVec F S10 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S3x128 .f32) (main_arg5 : FVec F S128x128 .f32) (main_arg6 : FVec F S128 .f32) (main_arg7 : FVec F S128x10 .f32) (main_arg8 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S3x128x128 .f32) (main_arg2 : FVec F S3x128 .f32) (main_arg3 : FVec F S3x128x128 .f32) (main_arg4 : FVec F S3x128 .f32) (main_arg5 : FVec F S128x128 .f32) (main_arg6 : FVec F S128 .f32) (main_arg7 : FVec F S128x10 .f32) (main_arg8 : FVec F S10 .f32) (main_arg9 : IVec S2x800000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S5000x128 : Shape := ⟨2, ![5000, 128]⟩
abbrev S500x128 : Shape := ⟨2, ![500, 128]⟩
abbrev S50000x1 : Shape := ⟨2, ![50000, 1]⟩
abbrev S1x10 : Shape := ⟨2, ![1, 10]⟩
abbrev S500x10 : Shape := ⟨2, ![500, 10]⟩

abbrev nBuf : Space → Nat
  | .hbm => 94
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S2x800000, .i32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128x128, .f32⟩
  | .hbm, ⟨33, _⟩ => ⟨S128x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128x128, .f32⟩
  | .hbm, ⟨81, _⟩ => ⟨S128x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S50000x128, .f32⟩
  | .hbm, ⟨87, _⟩ => ⟨S_, .f32⟩
  | .hbm, ⟨88, _⟩ => ⟨S500x128, .f32⟩
  | .hbm, ⟨89, _⟩ => ⟨S50000x1, .i32⟩
  | .hbm, ⟨90, _⟩ => ⟨S500x128, .f32⟩
  | .hbm, ⟨91, _⟩ => ⟨S1x128, .f32⟩
  | .hbm, ⟨92, _⟩ => ⟨S1x10, .f32⟩
  | .hbm, ⟨93, _⟩ => ⟨S500x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S500x128, .f32⟩
  | .local _ .vmem, ⟨31, _⟩ => ⟨S128x128, .f32⟩
  | .local _ .vmem, ⟨32, _⟩ => ⟨S1x128, .f32⟩
  | .local _ .vmem, ⟨33, _⟩ => ⟨S128x10, .f32⟩
  | .local _ .vmem, ⟨34, _⟩ => ⟨S1x10, .f32⟩
  | .local _ .vmem, ⟨35, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S500x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  shapeCasts_S10_S1x10 : S10.ShapeCasts S1x10
  inb_S500x128_S500x128_0_0 : ∀ a, (![0, 0] : Fin 2 → Nat) a + S500x128.size a ≤ S500x128.size a
  h_S500x128 : 0 < S500x128.numel
  shapeCasts_S500x128_S500x128 : S500x128.ShapeCasts S500x128
  broadcasts_S1x128_S500x128 : S1x128.Broadcasts S500x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S500x128.size a ≤ S500x128.size a
  hwx3_0 : ∀ i : grid3.Coords, EltTy.bits .f32 = 32 ∨ (Rect.block (s := S500x128) S500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S500x10.size a ≤ S500x10.size a
  hwx3_5 : ∀ i : grid3.Coords, EltTy.bits .f32 = 32 ∨ (Rect.block (s := S500x10) S500x10.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v69) S500x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S500x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S500x128 : Shape := ⟨2, ![500, 128]⟩
abbrev S50000x1 : Shape := ⟨2, ![50000, 1]⟩
abbrev S500x10 : Shape := ⟨2, ![500, 10]⟩
abbrev S1x10 : Shape := ⟨2, ![1, 10]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x128x128, .f32⟩
  | 4 => ⟨S3x128, .f32⟩
  | 5 => ⟨S128x128, .f32⟩
  | 6 => ⟨S128, .f32⟩
  | 7 => ⟨S128x10, .f32⟩
  | 8 => ⟨S10, .f32⟩
  | 9 => ⟨S2x800000, .i32⟩
  | 10 => ⟨S50000, .i32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S1x128x128, .f32⟩
  | 30 => ⟨S128x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S1x128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S1x128x128, .f32⟩
  | 77 => ⟨S128x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S500x128, .f32⟩
  | 125 => ⟨S50000x1, .i32⟩
  | 126 => ⟨S500x128, .f32⟩
  | 127 => ⟨S500x128, .f32⟩
  | _ => ⟨S50000x128, .f32⟩

abbrev hbmTy0_1 (i : Nat) : BufTy := match i % 128 with
  | 0 => ⟨S1x128, .f32⟩
  | 1 => ⟨S500x128, .f32⟩
  | 2 => ⟨S500x128, .f32⟩
  | 3 => ⟨S_, .f32⟩
  | 4 => ⟨S500x128, .f32⟩
  | 5 => ⟨S500x128, .f32⟩
  | 6 => ⟨S500x10, .f32⟩
  | 7 => ⟨S1x10, .f32⟩
  | 8 => ⟨S500x10, .f32⟩
  | 9 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_c_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  bcast_S1x128_S500x128_0_1 : S1x128.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

class Facts : Prop extends Facts₀ where

variable [Facts]
-- ==== Proof.KernelRun.lean ====
/-
  The idealized kernel's run with its RESULT named.

  @main is eight segments — four stretches of host operations and four kernel regions — and the contents of the
  TensorCore's buffers at each boundary are a fold `W0 … W8` from the launch memory: a stretch applies its host
  operations, a region replaces its arrays by what its write-backs leave. Every weakly fair execution terminates
  with every unscoped buffer at the last boundary's contents `W8`; read at the result's buffer this names the
  result, and read at an argument's buffer (which nothing writes) it gives the launch contents back.
  The segments, the proof data of the four regions and the boundary contents are the generated ones; what is
  stated here is the launch over them with a post that keeps the result.
-/
import proofs.«165273_j10350871184011_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipelines' launch element: every staging cell of the four pipelines with its launch tokens. -/
abbrev launchElem : UR sig nD τ := initOf (Pipeline.cells cfgs cellOf_inj) (Pipeline.launchToks cfgs cellOf_inj)

/-- The thread state a core starts from: every unscoped buffer at its launch contents, the generator register and
    nothing owed riding beside them. -/
abbrev Tfirst (c : Dev nD) : sProp 𝕄 :=
  iprop(StableHlo.held (c : Thread nD τ) (Pipeline.ucRefs τ sig) (W0 m ρ c) ∗ R (F := F) c)

/-- What is read of a final memory on core `c`: every unscoped buffer holds the last boundary's contents. -/
abbrev AtEnd (c : Dev nD) (s : MemSt nD τ sig (Elt F)) : Prop :=
  ∀ b ∈ Pipeline.ucRefs τ sig, s.mem (((c : Thread nD τ)).1, b) = W8 m ρ c b

/-- Owning the launch element is owning the pipeline library's, beside one empty ghost resource per core. -/
theorem launch_split : (ownU (launchElem) : sProp 𝕄)
    ⊢ |={Set.univ}=> iprop(BI.own (emb₁ (launchElem)) ∗ bigSep Finset.univ fun _ : Dev nD => (BI.emp : sProp 𝕄)) := by
  iintro Hown
  imodintro
  isplitl [Hown]
  · iapply (show (ownU launchElem : sProp 𝕄) ⊢ BI.own (emb₁ launchElem) from .rfl)
    iexact Hown
  · iapply (show (BI.emp : sProp 𝕄) ⊢ bigSep Finset.univ (fun _ : Dev nD => (BI.emp : sProp 𝕄)) from by
      rw [BI.bigSep_emp_const])
    iempintro

/-- What the launch deals to the cores makes each core's first thread state: its unscoped buffers are held at
    the launch contents, its generator register is at the launch seed, and it owes nothing. -/
theorem first_states :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c
          ∗ prngReg c (ρ c) ∗ (BI.emp : sProp 𝕄))) ∗ levAts L lv)
      ⊢ |={Set.univ}=> bigSep Finset.univ (Tfirst (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Howes, -, Hreg, -⟩, -⟩
  imodintro
  isplitl [Hbufs]
  · iexact Hbufs
  isplitl [Hreg]
  · iexists _
    iexact Hreg
  · iexists ∅
    iexact Howes

/-- The last thread state, held beside the state interpretation of a final state, says what that state's memory
    holds: every unscoped buffer the last boundary's contents. -/
theorem read_back (c : Dev nD) (s' : Phys nD τ sig (Elt F)) :
    iprop(Tₙ m ρ c ∗ SI s') ⊢ |={Set.univ}=> iprop(⌜AtEnd m ρ c s'.mem⌝ ∗ SI s') := by
  iintro ⟨⟨Hheld, -⟩, Hsi⟩
  unfold StableHlo.held
  imodintro
  iapply (pointsTo_read_all (Pipeline.ucRefs τ sig) (fun b => (((c : Thread nD τ)).1, b)) (W8 m ρ c) s')
  isplitl [Hheld] <;> iassumption

-- the launch theorem's implicit arguments are found by unifying its conclusion with this statement, which takes
-- unfolding plain definitions in a metavariable's type
set_option backward.isDefEq.respectTransparency.types false in
/-- THE RUN: every weakly fair execution of @main terminates, nothing faulting, with the result's buffer at the
    last boundary's contents and every argument as launched. -/
theorem run_named : θ_run defs (onTc (τ := τ) (main (F := F))) ⟨m, fun _ => 0, ρ⟩ (fun r => ∀ c : Dev nD,
      r.2.mem ((c.tc : Thread nD τ).loc main_v72) = W8 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := launchElem) (hu₀ := launch_split)
    (T₀ := Tfirst m ρ) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := first_states m ρ)
    (QY := AtEnd m ρ) (hfin := read_back m ρ)
    (hQ := fun s h c =>
      ⟨h c _ (mem_uc main_v72 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.NamedRun

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibMlpRows.lean ====
/-
  A two-layer perceptron applied to every row of a matrix, read at one entry over the extended reals.

  For x : [M, K], W1 : [K, H], W2 : [H, N] the entry (p, j) of  relu(x · W1 + b1) · W2 + b2  is

      mlp2Row W1 b1 W2 b2 (row p of x) j
        = (∑ e, max ((∑ k, x(p, k) · W1(k, e)) + b1 e) 0 · W2(e, j)) + b2 j,

  a function of ROW p of x alone — which is why computing it block of rows by block of rows, or on the whole
  matrix at once, gives the same array. Two spellings are read here: a kernel's (matrix-unit products into
  zero accumulators, each bias a one-row matrix [1, ·] broadcast down the rows, the rectifier a maximum with a
  zero splat) and the host's (dot_general, each bias a vector [·] laid as a row and broadcast down the rows,
  the rectifier a maximum with a broadcast zero). No entry needs to be finite: nothing is re-associated or
  distributed, both spellings are the same sums in the same order.
-/
import Idealize.ShloMosaic.Lib.ValueIdx
import Idealize.ShloMosaic.Lib.ValueLayout
import Idealize.ShloMosaic.Lib.Pipeline.Value
import Idealize.ShloMosaic.PureOps.Ideal.Laws
import proofs.«165273_j10350871184011_1_alg».proof.Proof.LibPlainMatmul

noncomputable section

open scoped BigOperators

namespace Cert.MlpRows

open Idealize.ShloMosaic Idealize.ShloMosaic.ValueIdx

variable {M K H N : Nat}

/-- The extended real the f32 word of +0.0 denotes. -/
abbrev zero32 : Ideal .f32 := Ideal.ofBits .f32 0x00000000#32

/-- One row through the perceptron: entry `j` of  relu(h · W1 + b1) · W2 + b2  for a row `h` of length `K`. -/
def mlp2Row (W1 : (⟨2, ![K, H]⟩ : Shape).Idx → EReal) (b1 : Fin H → EReal)
    (W2 : (⟨2, ![H, N]⟩ : Shape).Idx → EReal) (b2 : Fin N → EReal) (h : Fin K → EReal) (j : Fin N) : EReal :=
  (∑ e : Fin H, max ((∑ k : Fin K, h k * W1 (ix2 k e)) + b1 e) zero32 * W2 (ix2 e j)) + b2 j

/-- A vector [n] laid as a row [1, n] and broadcast down [m, n] rows, read at (p, c): entry c of the vector. -/
theorem bcastRow_apply {m n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (c : Fin n) :
    broadcastInDim ⟨2, ![m, n]⟩ ![0, 1] h2 (broadcastInDim ⟨2, ![1, n]⟩ ![1] h1 b) (ix2 p c) = b (ix1 c) := by
  have hc : c.val = if n = 1 then 0 else c.val := by
    by_cases hn : n = 1
    · rw [if_pos hn]; have := c.isLt; omega
    · rw [if_neg hn]
  rw [broadcastInDim_apply ![0, 1] h2 _ (ix2 p c) (ix2 (0 : Fin 1) c) (fun a => by
    match a with
    | ⟨0, _⟩ => show (0 : Nat) = if (1 : Nat) = 1 then 0 else p.val; rw [if_pos rfl]
    | ⟨1, _⟩ => exact hc)]
  exact broadcastInDim_apply ![1] h1 b (ix2 (0 : Fin 1) c) (ix1 c) (fun a => by
    match a with
    | ⟨0, _⟩ => exact hc)

/-- A scalar broadcast over a shape reads the scalar everywhere. -/
theorem bcastScalar_apply {s : Shape} (z : (⟨0, ![]⟩ : Shape).Idx → EReal) (dims : Fin 0 → Fin s.rank)
    (h : (⟨0, ![]⟩ : Shape).BroadcastsInDim s dims) (i : s.Idx) :
    broadcastInDim s dims h z i = z ix0 :=
  broadcastInDim_apply dims h z i ix0 (fun a => a.elim0)

/-- THE KERNEL'S SPELLING at entry (p, j). -/
theorem kernel_mlp2_apply (x : FVec Ideal ⟨2, ![M, K]⟩ .f32) (W1 : FVec Ideal ⟨2, ![K, H]⟩ .f32)
    (b1 : FVec Ideal ⟨2, ![1, H]⟩ .f32) (hb1 : (⟨2, ![1, H]⟩ : Shape).Broadcasts ⟨2, ![M, H]⟩)
    (W2 : FVec Ideal ⟨2, ![H, N]⟩ .f32)
    (b2 : FVec Ideal ⟨2, ![1, N]⟩ .f32) (hb2 : (⟨2, ![1, N]⟩ : Shape).Broadcasts ⟨2, ![M, N]⟩)
    (p : Fin M) (j : Fin N) :
    addf (matmul (DotDims.plain M H N) none
          (maximumf (addf (matmul (DotDims.plain M K H) none x W1 (constant (F := Ideal) ⟨2, ![M, H]⟩ .f32 0x00000000#32))
              (broadcastTo ⟨2, ![M, H]⟩ b1 hb1))
            (broadcast ⟨2, ![M, H]⟩ (Scalar.ofBits (F := Ideal) .f32 0x00000000#32)))
          W2 (constant (F := Ideal) ⟨2, ![M, N]⟩ .f32 0x00000000#32))
        (broadcastTo ⟨2, ![M, N]⟩ b2 hb2) (ix2 p j)
      = mlp2Row W1 (fun e => b1 (ix2 (0 : Fin 1) e)) W2 (fun c => b2 (ix2 (0 : Fin 1) c)) (fun k => x (ix2 p k)) j := by
  rw [addf_apply, PlainMatmul.matmul_zero_apply, broadcastTo_1b_ab_apply]
  unfold mlp2Row
  refine congrArg (· + b2 (ix2 (0 : Fin 1) j)) (Finset.sum_congr rfl fun e _ => ?_)
  refine congrArg (· * W2 (ix2 e j)) ?_
  rw [maximumf_apply, addf_apply, PlainMatmul.matmul_zero_apply, broadcastTo_1b_ab_apply]
  rfl

/-- THE HOST'S SPELLING at entry (p, j). -/
theorem host_mlp2_apply (x : FVec Ideal ⟨2, ![M, K]⟩ .f32) (W1 : FVec Ideal ⟨2, ![K, H]⟩ .f32)
    (b1 : FVec Ideal ⟨1, ![H]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (hz : (⟨0, ![]⟩ : Shape).BroadcastsInDim ⟨2, ![M, H]⟩ ![])
    (W2 : FVec Ideal ⟨2, ![H, N]⟩ .f32)
    (b2 : FVec Ideal ⟨1, ![N]⟩ .f32)
    (h21 : (⟨1, ![N]⟩ : Shape).BroadcastsInDim ⟨2, ![1, N]⟩ ![1])
    (h22 : (⟨2, ![1, N]⟩ : Shape).BroadcastsInDim ⟨2, ![M, N]⟩ ![0, 1])
    (p : Fin M) (j : Fin N) :
    addf (Host.dotGeneral (DotDims.plain M H N) none
          (maximumf (addf (Host.dotGeneral (DotDims.plain M K H) none x W1)
              (broadcastInDim ⟨2, ![M, H]⟩ ![0, 1] h12 (broadcastInDim ⟨2, ![1, H]⟩ ![1] h11 b1)))
            (broadcastInDim ⟨2, ![M, H]⟩ ![] hz (constant (F := Ideal) ⟨0, ![]⟩ .f32 0x00000000#32)))
          W2)
        (broadcastInDim ⟨2, ![M, N]⟩ ![0, 1] h22 (broadcastInDim ⟨2, ![1, N]⟩ ![1] h21 b2)) (ix2 p j)
      = mlp2Row W1 (fun e => b1 (ix1 e)) W2 (fun c => b2 (ix1 c)) (fun k => x (ix2 p k)) j := by
  rw [addf_apply, PlainMatmul.dotGeneral_apply, bcastRow_apply]
  unfold mlp2Row
  refine congrArg (· + b2 (ix1 j)) (Finset.sum_congr rfl fun e _ => ?_)
  refine congrArg (· * W2 (ix2 e j)) ?_
  rw [maximumf_apply, addf_apply, PlainMatmul.dotGeneral_apply, bcastRow_apply, bcastScalar_apply]
  rfl

end Cert.MlpRows

end
-- ==== Proof.Payload.lean ====
/-
  What each kernel body stores, read at one entry.

  The three layer kernels store, at row r and column j of their 5000-row block,
      max (mlp2Row W1 b1 W2 b2 (row r of x + row r of agg) j) 0
  — the layer's perceptron on the node's own features plus its neighbours' sum, then the outer rectifier —
  and the final kernel stores  mlp2Row W1 b1 W2 b2 (row r of the pooled features) j  at row r of its one
  500-row block. Each depends on ROW r of its operands only.
-/
import proofs.«165273_j10350871184011_1_alg».proof.Proof.Gen.KernelIdeal.Skeleton
import proofs.«165273_j10350871184011_1_alg».proof.Proof.LibMlpRows

noncomputable section

namespace Cert.KernelIdeal.Payload

open Cert.KernelIdeal Cert.KernelIdeal.Gen Idealize.ShloMosaic Idealize.ShloMosaic.ValueIdx Cert.MlpRows

/-- The first layer's block at (r, j). -/
theorem conv0_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k0_pay1 (F := Ideal) x0 x1 w1 b1 w2 b2 (ix2 r j)
      = max (mlp2Row w1 (fun e => b1 (ix2 (0 : Fin 1) e)) w2 (fun c => b2 (ix2 (0 : Fin 1) c))
          (fun k => x0 (ix2 r k) + x1 (ix2 r k)) j) zero32 := by
  unfold k0_pay1
  simp only [shapeCast_self]
  exact congrArg (max · zero32) (kernel_mlp2_apply (addf x0 x1) w1 b1 _ w2 b2 _ r j)

/-- The second layer's block at (r, j). -/
theorem conv1_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k1_pay1 (F := Ideal) x0 x1 w1 b1 w2 b2 (ix2 r j)
      = max (mlp2Row w1 (fun e => b1 (ix2 (0 : Fin 1) e)) w2 (fun c => b2 (ix2 (0 : Fin 1) c))
          (fun k => x0 (ix2 r k) + x1 (ix2 r k)) j) zero32 := by
  unfold k1_pay1
  simp only [shapeCast_self]
  exact congrArg (max · zero32) (kernel_mlp2_apply (addf x0 x1) w1 b1 _ w2 b2 _ r j)

/-- The third layer's block at (r, j). -/
theorem conv2_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (j : Fin 128) :
    k2_pay1 (F := Ideal) x0 x1 w1 b1 w2 b2 (ix2 r j)
      = max (mlp2Row w1 (fun e => b1 (ix2 (0 : Fin 1) e)) w2 (fun c => b2 (ix2 (0 : Fin 1) c))
          (fun k => x0 (ix2 r k) + x1 (ix2 r k)) j) zero32 := by
  unfold k2_pay1
  simp only [shapeCast_self]
  exact congrArg (max · zero32) (kernel_mlp2_apply (addf x0 x1) w1 b1 _ w2 b2 _ r j)

/-- The final perceptron's block at (r, j). -/
theorem head_apply (g : Vec Ideal S500x128 .f32) (w1 : Vec Ideal S128x128 .f32) (b1 : Vec Ideal S1x128 .f32)
    (w2 : Vec Ideal S128x10 .f32) (b2 : Vec Ideal S1x10 .f32) (r : Fin 500) (j : Fin 10) :
    k3_pay1 (F := Ideal) g w1 b1 w2 b2 (ix2 r j)
      = mlp2Row w1 (fun e => b1 (ix2 (0 : Fin 1) e)) w2 (fun c => b2 (ix2 (0 : Fin 1) c)) (fun k => g (ix2 r k)) j := by
  unfold k3_pay1
  simp only [shapeCast_self]
  exact kernel_mlp2_apply g w1 b1 _ w2 b2 _ r j

/-- The same four facts at any index of the block (an index is its pair of coordinates). -/
theorem conv0_at (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k0_pay1 (F := Ideal) x0 x1 w1 b1 w2 b2 y
      = max (mlp2Row w1 (fun e => b1 (ix2 (0 : Fin 1) e)) w2 (fun c => b2 (ix2 (0 : Fin 1) c))
          (fun k => x0 (ix2 (y 0) k) + x1 (ix2 (y 0) k)) (y 1)) zero32 :=
  (congrArg (k0_pay1 (F := Ideal) x0 x1 w1 b1 w2 b2) (eq_ix2 y)).trans (conv0_apply x0 x1 w1 b1 w2 b2 (y 0) (y 1))

theorem conv1_at (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k1_pay1 (F := Ideal) x0 x1 w1 b1 w2 b2 y
      = max (mlp2Row w1 (fun e => b1 (ix2 (0 : Fin 1) e)) w2 (fun c => b2 (ix2 (0 : Fin 1) c))
          (fun k => x0 (ix2 (y 0) k) + x1 (ix2 (y 0) k)) (y 1)) zero32 :=
  (congrArg (k1_pay1 (F := Ideal) x0 x1 w1 b1 w2 b2) (eq_ix2 y)).trans (conv1_apply x0 x1 w1 b1 w2 b2 (y 0) (y 1))

theorem conv2_at (x0 x1 : Vec Ideal S5000x128 .f32) (w1 : Vec Ideal S128x128 .f32) (b1 : Vec Ideal S1x128 .f32)
    (w2 : Vec Ideal S128x128 .f32) (b2 : Vec Ideal S1x128 .f32) (y : S5000x128.Idx) :
    k2_pay1 (F := Ideal) x0 x1 w1 b1 w2 b2 y
      = max (mlp2Row w1 (fun e => b1 (ix2 (0 : Fin 1) e)) w2 (fun c => b2 (ix2 (0 : Fin 1) c))
          (fun k => x0 (ix2 (y 0) k) + x1 (ix2 (y 0) k)) (y 1)) zero32 :=
  (congrArg (k2_pay1 (F := Ideal) x0 x1 w1 b1 w2 b2) (eq_ix2 y)).trans (conv2_apply x0 x1 w1 b1 w2 b2 (y 0) (y 1))

theorem head_at (g : Vec Ideal S500x128 .f32) (w1 : Vec Ideal S128x128 .f32) (b1 : Vec Ideal S1x128 .f32)
    (w2 : Vec Ideal S128x10 .f32) (b2 : Vec Ideal S1x10 .f32) (y : S500x10.Idx) :
    k3_pay1 (F := Ideal) g w1 b1 w2 b2 y
      = mlp2Row w1 (fun e => b1 (ix2 (0 : Fin 1) e)) w2 (fun c => b2 (ix2 (0 : Fin 1) c)) (fun k => g (ix2 (y 0) k)) (y 1) :=
  (congrArg (k3_pay1 (F := Ideal) g w1 b1 w2 b2) (eq_ix2 y)).trans (head_apply g w1 b1 w2 b2 (y 0) (y 1))

end Cert.KernelIdeal.Payload

end
-- ==== Proof.Spec.lean ====
/-
  The network as functions of its arrays.

  A layer of the graph network takes every node's features x and the sum agg of its in-neighbours' features
  and gives, for node p and output channel j,
      max (mlp2Row W1 b1 W2 b2 (row p of x + row p of agg) j) 0 ;
  the head takes the 500 pooled graph features and gives  mlp2Row W1 b1 W2 b2 (row p of g) j.
  Biases are taken as one-row matrices [1, ·]; a bias vector [·] laid as such a row reads the same numbers.
-/
import proofs.«165273_j10350871184011_1_alg».proof.Proof.Gen.KernelIdeal
import proofs.«165273_j10350871184011_1_alg».proof.Proof.LibMlpRows

noncomputable section

namespace Cert.Gin

open Cert.KernelIdeal Cert.KernelIdeal.Facts₀ Idealize.ShloMosaic Idealize.ShloMosaic.ValueIdx Cert.MlpRows

/-- One layer on all 50000 nodes. -/
def layerFn (W1 : S128x128.Idx → Ideal .f32) (B1 : S1x128.Idx → Ideal .f32) (W2 : S128x128.Idx → Ideal .f32)
    (B2 : S1x128.Idx → Ideal .f32) (x agg : S50000x128.Idx → Ideal .f32) : S50000x128.Idx → Ideal .f32 := fun i =>
  max (mlp2Row W1 (fun e => B1 (ix2 (0 : Fin 1) e)) W2 (fun c => B2 (ix2 (0 : Fin 1) c))
    (fun k => x (ix2 (i 0) k) + agg (ix2 (i 0) k)) (i 1)) zero32

/-- The head on the 500 pooled graphs. -/
def headFn (W1 : S128x128.Idx → Ideal .f32) (B1 : S1x128.Idx → Ideal .f32) (W2 : S128x10.Idx → Ideal .f32)
    (B2 : S1x10.Idx → Ideal .f32) (g : S500x128.Idx → Ideal .f32) : S500x10.Idx → Ideal .f32 := fun i =>
  mlp2Row W1 (fun e => B1 (ix2 (0 : Fin 1) e)) W2 (fun c => B2 (ix2 (0 : Fin 1) c)) (fun k => g (ix2 (i 0) k)) (i 1)

/-- A vector [n] reshaped to a row [1, n], read at (0, e): entry e of the vector. -/
theorem rowOf_apply {n : Nat} (b : (⟨1, ![n]⟩ : Shape).Idx → Ideal .f32)
    (h : (⟨1, ![n]⟩ : Shape).ShapeCasts ⟨2, ![1, n]⟩) (e : Fin n) :
    shapeCast ⟨2, ![1, n]⟩ b h (ix2 (0 : Fin 1) e) = b (ix1 e) := by
  refine (shapeCast_addUnit_apply ![n] b h (ix2 (0 : Fin 1) e)).trans (congrArg b ?_)
  funext a
  match a with
  | ⟨0, _⟩ => rfl

/-! ## The host's stages, and the whole network -/

/-- A host array of f32 of a shape, read at `Ideal`; one of i32. -/
abbrev F32 (s : Shape) : Type := (⟨s, .f32⟩ : BufTy).Contents (Elt Ideal)
abbrev I32 (s : Shape) : Type := (⟨s, .i32⟩ : BufTy).Contents (Elt Ideal)

/-- Row 0 of the edge list: each edge's source node. -/
def edgeRow0 (e : I32 S2x800000) : I32 S800000 :=
  shapeCast S800000 (extractStridedSlice S1x800000 ![0, 0] e slices_S2x800000_S1x800000_0_0) shapeCasts_S1x800000_S800000
/-- Row 1 of the edge list: each edge's destination node. -/
def edgeRow1 (e : I32 S2x800000) : I32 S800000 :=
  shapeCast S800000 (extractStridedSlice S1x800000 ![1, 0] e slices_S2x800000_S1x800000_1_0) shapeCasts_S1x800000_S800000

/-- The neighbour sum: every edge's source row (a negative id counted from the end) gathered, then added into
    its destination's row of a zero array. Both programs spell it with these very host operations, so nothing
    of what a gather or a scatter does with an id out of range needs to be known. -/
def aggOf (x : F32 S50000x128) (s d : I32 S800000) : F32 S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The pooling: every node's row added into its graph's row of a zero array. -/
def poolOf (x : F32 S50000x128) (bt : I32 S50000) : F32 S500x128 :=
  Host.scatterAdd (F := Ideal) scatter_S500x128_S50000x1_S50000x128_1_0_0_1
    (broadcastInDim S500x128 ![] bcast_S_S500x128 (constant (F := Ideal) S_ .f32 0x00000000#32))
    (broadcastInDim S50000x1 ![0] bcast_S50000_S50000x1_0 bt) x

/-- Layer l's weight matrix out of the stack of three. -/
def wAt0 (w : F32 S3x128x128) : F32 S128x128 :=
  shapeCast S128x128 (extractStridedSlice S1x128x128 ![0, 0, 0] w slices_S3x128x128_S1x128x128_0_0_0) shapeCasts_S1x128x128_S128x128
def wAt1 (w : F32 S3x128x128) : F32 S128x128 :=
  shapeCast S128x128 (extractStridedSlice S1x128x128 ![1, 0, 0] w slices_S3x128x128_S1x128x128_1_0_0) shapeCasts_S1x128x128_S128x128
def wAt2 (w : F32 S3x128x128) : F32 S128x128 :=
  shapeCast S128x128 (extractStridedSlice S1x128x128 ![2, 0, 0] w slices_S3x128x128_S1x128x128_2_0_0) shapeCasts_S1x128x128_S128x128
/-- Layer l's bias vector out of the stack of three. -/
def bAt0 (b : F32 S3x128) : F32 S128 :=
  shapeCast S128 (extractStridedSlice S1x128 ![0, 0] b slices_S3x128_S1x128_0_0) shapeCasts_S1x128_S128
def bAt1 (b : F32 S3x128) : F32 S128 :=
  shapeCast S128 (extractStridedSlice S1x128 ![1, 0] b slices_S3x128_S1x128_1_0) shapeCasts_S1x128_S128
def bAt2 (b : F32 S3x128) : F32 S128 :=
  shapeCast S128 (extractStridedSlice S1x128 ![2, 0] b slices_S3x128_S1x128_2_0) shapeCasts_S1x128_S128
/-- A bias vector laid as a one-row matrix. -/
def rowOf (b : F32 S128) : F32 S1x128 := shapeCast S1x128 b shapeCasts_S128_S1x128
def rowOf10 (b : F32 S10) : F32 S1x10 := shapeCast S1x10 b shapeCasts_S10_S1x10

variable (x0 : F32 S50000x128) (w1 : F32 S3x128x128) (b1 : F32 S3x128) (w2 : F32 S3x128x128) (b2 : F32 S3x128)
  (e : I32 S2x800000)

/-- The node features after one, two and three layers. -/
def feat1 : F32 S50000x128 :=
  layerFn (wAt0 w1) (rowOf (bAt0 b1)) (wAt0 w2) (rowOf (bAt0 b2)) x0 (aggOf x0 (edgeRow0 e) (edgeRow1 e))
def feat2 : F32 S50000x128 :=
  layerFn (wAt1 w1) (rowOf (bAt1 b1)) (wAt1 w2) (rowOf (bAt1 b2)) (feat1 x0 w1 b1 w2 b2 e)
    (aggOf (feat1 x0 w1 b1 w2 b2 e) (edgeRow0 e) (edgeRow1 e))
def feat3 : F32 S50000x128 :=
  layerFn (wAt2 w1) (rowOf (bAt2 b1)) (wAt2 w2) (rowOf (bAt2 b2)) (feat2 x0 w1 b1 w2 b2 e)
    (aggOf (feat2 x0 w1 b1 w2 b2 e) (edgeRow0 e) (edgeRow1 e))

/-- THE NETWORK: three layers, the pooling over graphs, the head. -/
def net (mw1 : F32 S128x128) (mb1 : F32 S128) (mw2 : F32 S128x10) (mb2 : F32 S10) (bt : I32 S50000) : F32 S500x10 :=
  headFn mw1 (rowOf mb1) mw2 (rowOf10 mb2) (poolOf (feat3 x0 w1 b1 w2 b2 e) bt)

end Cert.Gin

end
-- ==== Proof.Layer0.lean ====
/-
  The first layer's region: from its blocks to its array.

  The region's grid has ten points; point t stages rows 5000·t … 5000·t + 4999 of the node features and of the
  neighbour sums, the two weight matrices and the two bias rows whole, and writes back rows 5000·t … of the
  result. The stored block's row r depends on row r of the staged blocks only, and the ten blocks tile the
  50000 rows, so the array the region leaves is the layer function of the arrays it found, whatever they hold.
-/
import proofs.«165273_j10350871184011_1_alg».proof.Proof.Gen.KernelIdeal.Frame
import proofs.«165273_j10350871184011_1_alg».proof.Proof.Payload
import proofs.«165273_j10350871184011_1_alg».proof.Proof.Spec
import Idealize.ShloMosaic.Lib.Pipeline.Value

set_option maxRecDepth 16384

noncomputable section

namespace Cert.KernelIdeal.Layer0

open Cert.KernelIdeal Cert.KernelIdeal.Gen Cert.Gin Cert.MlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-blocked inputs move with the output, every other
    window stays at block (0, 0), and the output's row-block number is the point's. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every one of the ten row blocks is some point's. -/
theorem idx_onto : ∀ q : Fin 10, ∃ t : Fin cfg0.N, win0_6.index t = ![q.val, 0] :=
  (by decide +kernel : ∀ q : Fin 10, ∃ t : Fin grid0.N, win0_6.index t = ![q.val, 0])

/-- The windows staged whole read the whole array. -/
theorem blk2 (c : Dev nD) (t : Fin cfg0.N) : iblk0 V c 2 t = V c main_v15 := by
  obtain ⟨-, -, -, -, e0, e1, -⟩ := idx_facts t
  funext z
  show V c main_v15 (((cfg0.win 2).blk t).view.emb z) = V c main_v15 z
  refine congrArg (V c main_v15) (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem blk3 (c : Dev nD) (t : Fin cfg0.N) : iblk0 V c 3 t = V c main_v22 := by
  obtain ⟨-, -, -, -, -, -, e0, e1, -⟩ := idx_facts t
  funext z
  show V c main_v22 (((cfg0.win 3).blk t).view.emb z) = V c main_v22 z
  refine congrArg (V c main_v22) (funext fun a => Fin.ext ?_)
  match a with
  | ⟨0, _⟩ => show win0_3.index t (0 : Fin 2) * 1 + 1 * (z 0).val = (z 0).val; omega
  | ⟨1, _⟩ => show win0_3.index t (1 : Fin 2) * 128 + 1 * (z 1).val = (z 1).val; omega

theorem blk4 (c : Dev nD) (t : Fin cfg0.N) : iblk0 V c 4 t = V c main_v19 := by
  obtain ⟨-, -, -, -, -, -, -, -, e0, e1, -⟩ := idx_facts t
  funext z
  show V c main_v19 (((cfg0.win 4).blk t).view.emb z) = V c main_v19 z
  refine congrArg (V c main_v19) (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

theorem blk5 (c : Dev nD) (t : Fin cfg0.N) : iblk0 V c 5 t = V c main_v23 := by
  obtain ⟨-, -, -, -, -, -, -, -, -, -, e0, e1, -⟩ := idx_facts t
  funext z
  show V c main_v23 (((cfg0.win 5).blk t).view.emb z) = V c main_v23 z
  refine congrArg (V c main_v23) (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

/-- Row r of the staged feature block is the row of the array that the output block's row r lands on. -/
theorem blk0_row (c : Dev nD) (t : Fin cfg0.N) (y : S5000x128.Idx) (k : Fin 128) :
    iblk0 V c 0 t (ix2 (y 0) k) = V c main_arg0 (ix2 ((((cfg0.win 6).blk t).view.emb y) 0) k) := by
  obtain ⟨e0, e1, -⟩ := idx_facts t
  show V c main_arg0 (((cfg0.win 0).blk t).view.emb (ix2 (y 0) k)) = _
  refine congrArg (V c main_arg0) (funext fun a => Fin.ext ?_)
  match a with
  | ⟨0, _⟩ => show win0_0.index t (0 : Fin 2) * 5000 + 1 * (y 0).val = win0_6.index t (0 : Fin 2) * 5000 + 1 * (y 0).val; omega
  | ⟨1, _⟩ => show win0_0.index t (1 : Fin 2) * 128 + 1 * k.val = k.val; omega

theorem blk1_row (c : Dev nD) (t : Fin cfg0.N) (y : S5000x128.Idx) (k : Fin 128) :
    iblk0 V c 1 t (ix2 (y 0) k) = V c main_v13 (ix2 ((((cfg0.win 6).blk t).view.emb y) 0) k) := by
  obtain ⟨-, -, e0, e1, -⟩ := idx_facts t
  show V c main_v13 (((cfg0.win 1).blk t).view.emb (ix2 (y 0) k)) = _
  refine congrArg (V c main_v13) (funext fun a => Fin.ext ?_)
  match a with
  | ⟨0, _⟩ => show win0_1.index t (0 : Fin 2) * 5000 + 1 * (y 0).val = win0_6.index t (0 : Fin 2) * 5000 + 1 * (y 0).val; omega
  | ⟨1, _⟩ => show win0_1.index t (1 : Fin 2) * 128 + 1 * k.val = k.val; omega

/-- The output block's column is the array's column. -/
theorem out_col (t : Fin cfg0.N) (y : S5000x128.Idx) : (((cfg0.win 6).blk t).view.emb y) 1 = y 1 := by
  obtain ⟨-, -, -, -, -, -, -, -, -, -, -, -, e, -⟩ := idx_facts t
  refine Fin.ext ?_
  show win0_6.index t (1 : Fin 2) * 128 + 1 * (y 1).val = (y 1).val
  omega

/-- The array the region leaves, as a function of the arrays it found. -/
abbrev out (c : Dev nD) : S50000x128.Idx → Ideal .f32 :=
  layerFn (V c main_v15) (V c main_v22) (V c main_v19) (V c main_v23) (V c main_arg0) (V c main_v13)

/-- WHAT POINT t WRITES BACK is block t of the layer function of the arrays the region found. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext y
  show k0_pay1 (iblk0 V c 0 t) (iblk0 V c 1 t) (iblk0 V c 2 t) (iblk0 V c 3 t) (iblk0 V c 4 t) (iblk0 V c 5 t) y
    = layerFn (V c main_v15) (V c main_v22) (V c main_v19) (V c main_v23) (V c main_arg0) (V c main_v13) (((cfg0.win 6).blk t).view.emb y)
  refine (Payload.conv0_at (iblk0 V c 0 t) (iblk0 V c 1 t) (iblk0 V c 2 t) (iblk0 V c 3 t) (iblk0 V c 4 t) (iblk0 V c 5 t) y).trans ?_
  rw [blk2 V c t, blk3 V c t, blk4 V c t, blk5 V c t]
  unfold layerFn
  refine congrArg (max · zero32) ?_
  exact congr (congrArg (mlp2Row _ _ _ _) (funext fun k => by rw [blk0_row V c t y k, blk1_row V c t y k])) (out_col t y).symm

/-- An index of the array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- The ten blocks cover the array: row p is in the block of point p / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE ARRAY the region leaves is the layer function of the arrays it found. -/
theorem final (c : Dev nD) : (dat0 V c).arrAt 6 cfg0.N = out V c :=
  (dat0 V c).arrAt_eq_of_cover 6 (out V c) (fun t _ => flushed_eq V c t) cover

end Cert.KernelIdeal.Layer0

end
-- ==== Proof.Layer1.lean ====
/-
  The second layer's region: from its blocks to its array.

  The region's grid has ten points; point t stages rows 5000·t … 5000·t + 4999 of the node features and of the
  neighbour sums, the two weight matrices and the two bias rows whole, and writes back rows 5000·t … of the
  result. The stored block's row r depends on row r of the staged blocks only, and the ten blocks tile the
  50000 rows, so the array the region leaves is the layer function of the arrays it found, whatever they hold.
-/
import proofs.«165273_j10350871184011_1_alg».proof.Proof.Gen.KernelIdeal.Frame
import proofs.«165273_j10350871184011_1_alg».proof.Proof.Payload
import proofs.«165273_j10350871184011_1_alg».proof.Proof.Spec
import Idealize.ShloMosaic.Lib.Pipeline.Value

set_option maxRecDepth 16384

noncomputable section

namespace Cert.KernelIdeal.Layer1

open Cert.KernelIdeal Cert.KernelIdeal.Gen Cert.Gin Cert.MlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-blocked inputs move with the output, every other
    window stays at block (0, 0), and the output's row-block number is the point's. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every one of the ten row blocks is some point's. -/
theorem idx_onto : ∀ q : Fin 10, ∃ t : Fin cfg1.N, win1_6.index t = ![q.val, 0] :=
  (by decide +kernel : ∀ q : Fin 10, ∃ t : Fin grid1.N, win1_6.index t = ![q.val, 0])

/-- The windows staged whole read the whole array. -/
theorem blk2 (c : Dev nD) (t : Fin cfg1.N) : iblk1 V c 2 t = V c main_v36 := by
  obtain ⟨-, -, -, -, e0, e1, -⟩ := idx_facts t
  funext z
  show V c main_v36 (((cfg1.win 2).blk t).view.emb z) = V c main_v36 z
  refine congrArg (V c main_v36) (funext fun a => Fin.ext ?_)
  match a with
  | ⟨0, _⟩ => show win1_2.index t (0 : Fin 2) * 128 + 1 * (z 0).val = (z 0).val; omega
  | ⟨1, _⟩ => show win1_2.index t (1 : Fin 2) * 128 + 1 * (z 1).val = (z 1).val; omega

theorem blk3 (c : Dev nD) (t : Fin cfg1.N) : iblk1 V c 3 t = V c main_v43 := by
  obtain ⟨-, -, -, -, -, -, e0, e1, -⟩ := idx_facts t
  funext z
  show V c main_v43 (((cfg1.win 3).blk t).view.emb z) = V c main_v43 z
  refine congrArg (V c main_v43) (funext fun a => Fin.ext ?_)
  match a with
  | ⟨0, _⟩ => show win1_3.index t (0 : Fin 2) * 1 + 1 * (z 0).val = (z 0).val; omega
  | ⟨1, _⟩ => show win1_3.index t (1 : Fin 2) * 128 + 1 * (z 1).val = (z 1).val; omega

theorem blk4 (c : Dev nD) (t : Fin cfg1.N) : iblk1 V c 4 t = V c main_v40 := by
  obtain ⟨-, -, -, -, -, -, -, -, e0, e1, -⟩ := idx_facts t
  funext z
  show V c main_v40 (((cfg1.win 4).blk t).view.emb z) = V c main_v40 z
  refine congrArg (V c main_v40) (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

theorem blk5 (c : Dev nD) (t : Fin cfg1.N) : iblk1 V c 5 t = V c main_v44 := by
  obtain ⟨-, -, -, -, -, -, -, -, -, -, e0, e1, -⟩ := idx_facts t
  funext z
  show V c main_v44 (((cfg1.win 5).blk t).view.emb z) = V c main_v44 z
  refine congrArg (V c main_v44) (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

/-- Row r of the staged feature block is the row of the array that the output block's row r lands on. -/
theorem blk0_row (c : Dev nD) (t : Fin cfg1.N) (y : S5000x128.Idx) (k : Fin 128) :
    iblk1 V c 0 t (ix2 (y 0) k) = V c main_v24 (ix2 ((((cfg1.win 6).blk t).view.emb y) 0) k) := by
  obtain ⟨e0, e1, -⟩ := idx_facts t
  show V c main_v24 (((cfg1.win 0).blk t).view.emb (ix2 (y 0) k)) = _
  refine congrArg (V c main_v24) (funext fun a => Fin.ext ?_)
  match a with
  | ⟨0, _⟩ => show win1_0.index t (0 : Fin 2) * 5000 + 1 * (y 0).val = win1_6.index t (0 : Fin 2) * 5000 + 1 * (y 0).val; omega
  | ⟨1, _⟩ => show win1_0.index t (1 : Fin 2) * 128 + 1 * k.val = k.val; omega

theorem blk1_row (c : Dev nD) (t : Fin cfg1.N) (y : S5000x128.Idx) (k : Fin 128) :
    iblk1 V c 1 t (ix2 (y 0) k) = V c main_v34 (ix2 ((((cfg1.win 6).blk t).view.emb y) 0) k) := by
  obtain ⟨-, -, e0, e1, -⟩ := idx_facts t
  show V c main_v34 (((cfg1.win 1).blk t).view.emb (ix2 (y 0) k)) = _
  refine congrArg (V c main_v34) (funext fun a => Fin.ext ?_)
  match a with
  | ⟨0, _⟩ => show win1_1.index t (0 : Fin 2) * 5000 + 1 * (y 0).val = win1_6.index t (0 : Fin 2) * 5000 + 1 * (y 0).val; omega
  | ⟨1, _⟩ => show win1_1.index t (1 : Fin 2) * 128 + 1 * k.val = k.val; omega

/-- The output block's column is the array's column. -/
theorem out_col (t : Fin cfg1.N) (y : S5000x128.Idx) : (((cfg1.win 6).blk t).view.emb y) 1 = y 1 := by
  obtain ⟨-, -, -, -, -, -, -, -, -, -, -, -, e, -⟩ := idx_facts t
  refine Fin.ext ?_
  show win1_6.index t (1 : Fin 2) * 128 + 1 * (y 1).val = (y 1).val
  omega

/-- The array the region leaves, as a function of the arrays it found. -/
abbrev out (c : Dev nD) : S50000x128.Idx → Ideal .f32 :=
  layerFn (V c main_v36) (V c main_v43) (V c main_v40) (V c main_v44) (V c main_v24) (V c main_v34)

/-- WHAT POINT t WRITES BACK is block t of the layer function of the arrays the region found. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  show k1_pay1 (iblk1 V c 0 t) (iblk1 V c 1 t) (iblk1 V c 2 t) (iblk1 V c 3 t) (iblk1 V c 4 t) (iblk1 V c 5 t) y
    = layerFn (V c main_v36) (V c main_v43) (V c main_v40) (V c main_v44) (V c main_v24) (V c main_v34) (((cfg1.win 6).blk t).view.emb y)
  refine (Payload.conv1_at (iblk1 V c 0 t) (iblk1 V c 1 t) (iblk1 V c 2 t) (iblk1 V c 3 t) (iblk1 V c 4 t) (iblk1 V c 5 t) y).trans ?_
  rw [blk2 V c t, blk3 V c t, blk4 V c t, blk5 V c t]
  unfold layerFn
  refine congrArg (max · zero32) ?_
  exact congr (congrArg (mlp2Row _ _ _ _) (funext fun k => by rw [blk0_row V c t y k, blk1_row V c t y k])) (out_col t y).symm

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45).slice (win1_6.rect t)).set ↔ _
  rw [View.set_slice_whole, Rect.mem_set_unit]
  exact Iff.rfl

/-- The ten blocks cover the array: row p is in the block of point p / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE ARRAY the region leaves is the layer function of the arrays it found. -/
theorem final (c : Dev nD) : (dat1 V c).arrAt 6 cfg1.N = out V c :=
  (dat1 V c).arrAt_eq_of_cover 6 (out V c) (fun t _ => flushed_eq V c t) cover

end Cert.KernelIdeal.Layer1

end
-- ==== Proof.Layer2.lean ====
/-
  The third layer's region: from its blocks to its array.

  The region's grid has ten points; point t stages rows 5000·t … 5000·t + 4999 of the node features and of the
  neighbour sums, the two weight matrices and the two bias rows whole, and writes back rows 5000·t … of the
  result. The stored block's row r depends on row r of the staged blocks only, and the ten blocks tile the
  50000 rows, so the array the region leaves is the layer function of the arrays it found, whatever they hold.
-/
import proofs.«165273_j10350871184011_1_alg».proof.Proof.Gen.KernelIdeal.Frame
import proofs.«165273_j10350871184011_1_alg».proof.Proof.Payload
import proofs.«165273_j10350871184011_1_alg».proof.Proof.Spec
import Idealize.ShloMosaic.Lib.Pipeline.Value

set_option maxRecDepth 16384

noncomputable section

namespace Cert.KernelIdeal.Layer2

open Cert.KernelIdeal Cert.KernelIdeal.Gen Cert.Gin Cert.MlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-blocked inputs move with the output, every other
    window stays at block (0, 0), and the output's row-block number is the point's. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every one of the ten row blocks is some point's. -/
theorem idx_onto : ∀ q : Fin 10, ∃ t : Fin cfg2.N, win2_6.index t = ![q.val, 0] :=
  (by decide +kernel : ∀ q : Fin 10, ∃ t : Fin grid2.N, win2_6.index t = ![q.val, 0])

/-- The windows staged whole read the whole array. -/
theorem blk2 (c : Dev nD) (t : Fin cfg2.N) : iblk2 V c 2 t = V c main_v57 := by
  obtain ⟨-, -, -, -, e0, e1, -⟩ := idx_facts t
  funext z
  show V c main_v57 (((cfg2.win 2).blk t).view.emb z) = V c main_v57 z
  refine congrArg (V c main_v57) (funext fun a => Fin.ext ?_)
  match a with
  | ⟨0, _⟩ => show win2_2.index t (0 : Fin 2) * 128 + 1 * (z 0).val = (z 0).val; omega
  | ⟨1, _⟩ => show win2_2.index t (1 : Fin 2) * 128 + 1 * (z 1).val = (z 1).val; omega

theorem blk3 (c : Dev nD) (t : Fin cfg2.N) : iblk2 V c 3 t = V c main_v64 := by
  obtain ⟨-, -, -, -, -, -, e0, e1, -⟩ := idx_facts t
  funext z
  show V c main_v64 (((cfg2.win 3).blk t).view.emb z) = V c main_v64 z
  refine congrArg (V c main_v64) (funext fun a => Fin.ext ?_)
  match a with
  | ⟨0, _⟩ => show win2_3.index t (0 : Fin 2) * 1 + 1 * (z 0).val = (z 0).val; omega
  | ⟨1, _⟩ => show win2_3.index t (1 : Fin 2) * 128 + 1 * (z 1).val = (z 1).val; omega

theorem blk4 (c : Dev nD) (t : Fin cfg2.N) : iblk2 V c 4 t = V c main_v61 := by
  obtain ⟨-, -, -, -, -, -, -, -, e0, e1, -⟩ := idx_facts t
  funext z
  show V c main_v61 (((cfg2.win 4).blk t).view.emb z) = V c main_v61 z
  refine congrArg (V c main_v61) (funext fun a => Fin.ext ?_)
  match a with
  | ⟨0, _⟩ => show win2_4.index t (0 : Fin 2) * 128 + 1 * (z 0).val = (z 0).val; omega
  | ⟨1, _⟩ => show win2_4.index t (1 : Fin 2) * 128 + 1 * (z 1).val = (z 1).val; omega

theorem blk5 (c : Dev nD) (t : Fin cfg2.N) : iblk2 V c 5 t = V c main_v65 := by
  obtain ⟨-, -, -, -, -, -, -, -, -, -, e0, e1, -⟩ := idx_facts t
  funext z
  show V c main_v65 (((cfg2.win 5).blk t).view.emb z) = V c main_v65 z
  refine congrArg (V c main_v65) (funext fun a => Fin.ext ?_)
  match a with
  | ⟨0, _⟩ => show win2_5.index t (0 : Fin 2) * 1 + 1 * (z 0).val = (z 0).val; omega
  | ⟨1, _⟩ => show win2_5.index t (1 : Fin 2) * 128 + 1 * (z 1).val = (z 1).val; omega

/-- Row r of the staged feature block is the row of the array that the output block's row r lands on. -/
theorem blk0_row (c : Dev nD) (t : Fin cfg2.N) (y : S5000x128.Idx) (k : Fin 128) :
    iblk2 V c 0 t (ix2 (y 0) k) = V c main_v45 (ix2 ((((cfg2.win 6).blk t).view.emb y) 0) k) := by
  obtain ⟨e0, e1, -⟩ := idx_facts t
  show V c main_v45 (((cfg2.win 0).blk t).view.emb (ix2 (y 0) k)) = _
  refine congrArg (V c main_v45) (funext fun a => Fin.ext ?_)
  match a with
  | ⟨0, _⟩ => show win2_0.index t (0 : Fin 2) * 5000 + 1 * (y 0).val = win2_6.index t (0 : Fin 2) * 5000 + 1 * (y 0).val; omega
  | ⟨1, _⟩ => show win2_0.index t (1 : Fin 2) * 128 + 1 * k.val = k.val; omega

theorem blk1_row (c : Dev nD) (t : Fin cfg2.N) (y : S5000x128.Idx) (k : Fin 128) :
    iblk2 V c 1 t (ix2 (y 0) k) = V c main_v55 (ix2 ((((cfg2.win 6).blk t).view.emb y) 0) k) := by
  obtain ⟨-, -, e0, e1, -⟩ := idx_facts t
  show V c main_v55 (((cfg2.win 1).blk t).view.emb (ix2 (y 0) k)) = _
  refine congrArg (V c main_v55) (funext fun a => Fin.ext ?_)
  match a with
  | ⟨0, _⟩ => show win2_1.index t (0 : Fin 2) * 5000 + 1 * (y 0).val = win2_6.index t (0 : Fin 2) * 5000 + 1 * (y 0).val; omega
  | ⟨1, _⟩ => show win2_1.index t (1 : Fin 2) * 128 + 1 * k.val = k.val; omega

/-- The output block's column is the array's column. -/
theorem out_col (t : Fin cfg2.N) (y : S5000x128.Idx) : (((cfg2.win 6).blk t).view.emb y) 1 = y 1 := by
  obtain ⟨-, -, -, -, -, -, -, -, -, -, -, -, e, -⟩ := idx_facts t
  refine Fin.ext ?_
  show win2_6.index t (1 : Fin 2) * 128 + 1 * (y 1).val = (y 1).val
  omega

/-- The array the region leaves, as a function of the arrays it found. -/
abbrev out (c : Dev nD) : S50000x128.Idx → Ideal .f32 :=
  layerFn (V c main_v57) (V c main_v64) (V c main_v61) (V c main_v65) (V c main_v45) (V c main_v55)

/-- WHAT POINT t WRITES BACK is block t of the layer function of the arrays the region found. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  funext y
  show k2_pay1 (iblk2 V c 0 t) (iblk2 V c 1 t) (iblk2 V c 2 t) (iblk2 V c 3 t) (iblk2 V c 4 t) (iblk2 V c 5 t) y
    = layerFn (V c main_v57) (V c main_v64) (V c main_v61) (V c main_v65) (V c main_v45) (V c main_v55) (((cfg2.win 6).blk t).view.emb y)
  refine (Payload.conv2_at (iblk2 V c 0 t) (iblk2 V c 1 t) (iblk2 V c 2 t) (iblk2 V c 3 t) (iblk2 V c 4 t) (iblk2 V c 5 t) y).trans ?_
  rw [blk2 V c t, blk3 V c t, blk4 V c t, blk5 V c t]
  unfold layerFn
  refine congrArg (max · zero32) ?_
  exact congr (congrArg (mlp2Row _ _ _ _) (funext fun k => by rw [blk0_row V c t y k, blk1_row V c t y k])) (out_col t y).symm

/-- An index of the array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v66).slice (win2_6.rect t)).set ↔ _
  rw [View.set_slice_whole, Rect.mem_set_unit]
  exact Iff.rfl

/-- The ten blocks cover the array: row p is in the block of point p / 5000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE ARRAY the region leaves is the layer function of the arrays it found. -/
theorem final (c : Dev nD) : (dat2 V c).arrAt 6 cfg2.N = out V c :=
  (dat2 V c).arrAt_eq_of_cover 6 (out V c) (fun t _ => flushed_eq V c t) cover

end Cert.KernelIdeal.Layer2

end
-- ==== Proof.Head.lean ====
/-
  The final perceptron's region: its one block is its array.

  The grid has one point, which stages the 500 pooled graph features, both weight matrices and both bias rows
  whole and writes the whole [500, 10] result back: the array the region leaves is the head function of the
  arrays it found.
-/
import proofs.«165273_j10350871184011_1_alg».proof.Proof.Gen.KernelIdeal.Frame
import proofs.«165273_j10350871184011_1_alg».proof.Proof.Payload
import proofs.«165273_j10350871184011_1_alg».proof.Proof.Spec
import Idealize.ShloMosaic.Lib.Pipeline.Value

set_option maxRecDepth 16384

noncomputable section

namespace Cert.KernelIdeal.Head

open Cert.KernelIdeal Cert.KernelIdeal.Gen Cert.Gin Cert.MlpRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every window of the one point sits at block (0, 0). -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- There is a point. -/
theorem a_point : ∃ t : Fin cfg3.N, win3_5.index t = ![0, 0] :=
  (by decide +kernel : ∃ t : Fin grid3.N, win3_5.index t = ![0, 0])

theorem blk0 (c : Dev nD) (t : Fin cfg3.N) : iblk3 V c 0 t = V c main_v69 := by
  obtain ⟨e0, e1, -⟩ := idx_facts t
  funext z
  show V c main_v69 (((cfg3.win 0).blk t).view.emb z) = V c main_v69 z
  refine congrArg (V c main_v69) (funext fun a => Fin.ext ?_)
  match a with
  | ⟨0, _⟩ => show win3_0.index t (0 : Fin 2) * 500 + 1 * (z 0).val = (z 0).val; omega
  | ⟨1, _⟩ => show win3_0.index t (1 : Fin 2) * 128 + 1 * (z 1).val = (z 1).val; omega

theorem blk1 (c : Dev nD) (t : Fin cfg3.N) : iblk3 V c 1 t = V c main_arg5 := by
  obtain ⟨-, -, e0, e1, -⟩ := idx_facts t
  funext z
  show V c main_arg5 (((cfg3.win 1).blk t).view.emb z) = V c main_arg5 z
  refine congrArg (V c main_arg5) (funext fun a => Fin.ext ?_)
  match a with
  | ⟨0, _⟩ => show win3_1.index t (0 : Fin 2) * 128 + 1 * (z 0).val = (z 0).val; omega
  | ⟨1, _⟩ => show win3_1.index t (1 : Fin 2) * 128 + 1 * (z 1).val = (z 1).val; omega

theorem blk2 (c : Dev nD) (t : Fin cfg3.N) : iblk3 V c 2 t = V c main_v70 := by
  obtain ⟨-, -, -, -, e0, e1, -⟩ := idx_facts t
  funext z
  show V c main_v70 (((cfg3.win 2).blk t).view.emb z) = V c main_v70 z
  refine congrArg (V c main_v70) (funext fun a => Fin.ext ?_)
  match a with
  | ⟨0, _⟩ => show win3_2.index t (0 : Fin 2) * 1 + 1 * (z 0).val = (z 0).val; omega
  | ⟨1, _⟩ => show win3_2.index t (1 : Fin 2) * 128 + 1 * (z 1).val = (z 1).val; omega

theorem blk3 (c : Dev nD) (t : Fin cfg3.N) : iblk3 V c 3 t = V c main_arg7 := by
  obtain ⟨-, -, -, -, -, -, e0, e1, -⟩ := idx_facts t
  funext z
  show V c main_arg7 (((cfg3.win 3).blk t).view.emb z) = V c main_arg7 z
  refine congrArg (V c main_arg7) (funext fun a => Fin.ext ?_)
  match a with
  | ⟨0, _⟩ => show win3_3.index t (0 : Fin 2) * 128 + 1 * (z 0).val = (z 0).val; omega
  | ⟨1, _⟩ => show win3_3.index t (1 : Fin 2) * 10 + 1 * (z 1).val = (z 1).val; omega

theorem blk4 (c : Dev nD) (t : Fin cfg3.N) : iblk3 V c 4 t = V c main_v71 := by
  obtain ⟨-, -, -, -, -, -, -, -, e0, e1, -⟩ := idx_facts t
  funext z
  show V c main_v71 (((cfg3.win 4).blk t).view.emb z) = V c main_v71 z
  refine congrArg (V c main_v71) (funext fun a => Fin.ext ?_)
  match a with
  | ⟨0, _⟩ => show win3_4.index t (0 : Fin 2) * 1 + 1 * (z 0).val = (z 0).val; omega
  | ⟨1, _⟩ => show win3_4.index t (1 : Fin 2) * 10 + 1 * (z 1).val = (z 1).val; omega

/-- The output block's index is the array's index. -/
theorem out_idx (t : Fin cfg3.N) (y : S500x10.Idx) : ((cfg3.win 5).blk t).view.emb y = y := by
  obtain ⟨-, -, -, -, -, -, -, -, -, -, e0, e1⟩ := idx_facts t
  funext a
  refine Fin.ext ?_
  match a with
  | ⟨0, _⟩ => show win3_5.index t (0 : Fin 2) * 500 + 1 * (y 0).val = (y 0).val; omega
  | ⟨1, _⟩ => show win3_5.index t (1 : Fin 2) * 10 + 1 * (y 1).val = (y 1).val; omega

/-- The array the region leaves, as a function of the arrays it found. -/
abbrev out (c : Dev nD) : S500x10.Idx → Ideal .f32 :=
  headFn (V c main_arg5) (V c main_v70) (V c main_arg7) (V c main_v71) (V c main_v69)

/-- WHAT THE POINT WRITES BACK is the head function of the arrays the region found. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S500x128) hz, View.ld_unit_zero (S := S128x128) hz, View.ld_unit_zero (S := S1x128) hz,
    View.ld_unit_zero (S := S128x10) hz, View.ld_unit_zero (S := S1x10) hz]
  funext y
  show k3_pay1 (iblk3 V c 0 t) (iblk3 V c 1 t) (iblk3 V c 2 t) (iblk3 V c 3 t) (iblk3 V c 4 t) y
    = headFn (V c main_arg5) (V c main_v70) (V c main_arg7) (V c main_v71) (V c main_v69) (((cfg3.win 5).blk t).view.emb y)
  refine (Payload.head_at (iblk3 V c 0 t) (iblk3 V c 1 t) (iblk3 V c 2 t) (iblk3 V c 3 t) (iblk3 V c 4 t) y).trans ?_
  rw [blk0 V c t, blk1 V c t, blk2 V c t, blk3 V c t, blk4 V c t]
  exact (show _ = headFn (V c main_arg5) (V c main_v70) (V c main_arg7) (V c main_v71) (V c main_v69) y from rfl).trans
    (congrArg (headFn (V c main_arg5) (V c main_v70) (V c main_arg7) (V c main_v71) (V c main_v69)) (out_idx t y).symm)

/-- An index of the array is in the point's block iff each coordinate is in the block's range on its axis. -/
theorem mem_blk (t : Fin cfg3.N) (i : S500x10.Idx) :
    i ∈ ((cfg3.win 5).blk t).view.set ↔ ∀ a : Fin 2, win3_5.index t a * S500x10.size a ≤ (i a).val ∧ (i a).val < win3_5.index t a * S500x10.size a + S500x10.size a := by
  show i ∈ ((View.whole main_v72).slice (win3_5.rect t)).set ↔ _
  rw [View.set_slice_whole, Rect.mem_set_unit]
  exact Iff.rfl

/-- The one block covers the array. -/
theorem cover (i : S500x10.Idx) : ∃ t : Fin cfg3.N, (cfg3.win 5).flush t = true ∧ i ∈ ((cfg3.win 5).blk t).view.set := by
  have hi0 : (i 0).val < 500 := (i 0).isLt
  have hi1 : (i 1).val < 10 := (i 1).isLt
  obtain ⟨t, ht⟩ := a_point
  have q0 : win3_5.index t (0 : Fin 2) = 0 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 500 ≤ (i 0).val ∧ (i 0).val < win3_5.index t (0 : Fin 2) * 500 + 500; omega
  | ⟨1, _⟩ => show win3_5.index t (1 : Fin 2) * 10 ≤ (i 1).val ∧ (i 1).val < win3_5.index t (1 : Fin 2) * 10 + 10; omega

/-- THE ARRAY the region leaves is the head function of the arrays it found. -/
theorem final (c : Dev nD) : (dat3 V c).arrAt 5 cfg3.N = out V c :=
  (dat3 V c).arrAt_eq_of_cover 5 (out V c) (fun t _ => flushed_eq V c t) cover

end Cert.KernelIdeal.Head

end
-- ==== Proof.KernelValue.lean ====
/-
  What the idealized kernel's result buffer holds at the end, as a function of the launch arguments.

  The buffers' contents at the eight boundaries of @main are a fold from the launch memory. Followed buffer by
  buffer: the first stretch of host operations computes the edge rows, the first neighbour sum and the first
  layer's weight slices from the arguments; the first region leaves the features after one layer (its array
  is the layer function of what it found); the second stretch computes the neighbour sum of THOSE features
  and the second layer's slices, from the arguments and the edge rows carried through unchanged; and so on
  through the third region, the pooling and the head. What is carried — the edge rows and the argument arrays —
  is written by no stretch and is no region's array.
-/
import proofs.«165273_j10350871184011_1_alg».proof.Proof.Layer0
import proofs.«165273_j10350871184011_1_alg».proof.Proof.Layer1
import proofs.«165273_j10350871184011_1_alg».proof.Proof.Layer2
import proofs.«165273_j10350871184011_1_alg».proof.Proof.Head
import Idealize.ShloMosaic.Lib.StableHlo.Run

set_option maxRecDepth 16384

noncomputable section

namespace Cert.KernelIdeal.NetValue

open Cert.KernelIdeal Cert.KernelIdeal.Gen Cert.Gin
open Idealize.ShloMosaic Idealize.ShloMosaic.TcCoe Idealize.ShloMosaic.StableHlo Idealize.SL.Sem

variable (m : (ℓ : Loc nD τ sig) → Buf (Elt Ideal) ℓ) (ρ : Dev nD → PrngReg)

/-- What every later stretch and region still needs of the launch: the two edge rows (computed once, by the first
    stretch) and the argument arrays. -/
structure Kept (c : Dev nD) (W : Valuation τ sig (Elt Ideal)) : Prop where
  v1 : W (Proc.devRef .tc main_v1) = (edgeRow0 (m ((c : Thread nD τ).loc main_arg9)))
  v3 : W (Proc.devRef .tc main_v3) = (edgeRow1 (m ((c : Thread nD τ).loc main_arg9)))
  a1 : W (Proc.devRef .tc main_arg1) = (m ((c : Thread nD τ).loc main_arg1))
  a2 : W (Proc.devRef .tc main_arg2) = (m ((c : Thread nD τ).loc main_arg2))
  a3 : W (Proc.devRef .tc main_arg3) = (m ((c : Thread nD τ).loc main_arg3))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a10 : W (Proc.devRef .tc main_arg10) = (m ((c : Thread nD τ).loc main_arg10))

set_option maxHeartbeats 16000000 in
/-- After the first stretch: the edge rows are computed, the arguments untouched. -/
theorem kept1 (c : Dev nD) : Kept m c (W1 m ρ c) where
  v1 := by
    show StableHlo.after hostOps0 (W0 m ρ c) (Proc.devRef .tc main_v1) = _
    after_results_simp
    all_goals rfl
  v3 := by
    show StableHlo.after hostOps0 (W0 m ρ c) (Proc.devRef .tc main_v3) = _
    after_results_simp
    all_goals rfl
  a1 := by
    show StableHlo.after hostOps0 (W0 m ρ c) (Proc.devRef .tc main_arg1) = _
    after_results_simp
    all_goals rfl
  a2 := by
    show StableHlo.after hostOps0 (W0 m ρ c) (Proc.devRef .tc main_arg2) = _
    after_results_simp
    all_goals rfl
  a3 := by
    show StableHlo.after hostOps0 (W0 m ρ c) (Proc.devRef .tc main_arg3) = _
    after_results_simp
    all_goals rfl
  a4 := by
    show StableHlo.after hostOps0 (W0 m ρ c) (Proc.devRef .tc main_arg4) = _
    after_results_simp
    all_goals rfl
  a5 := by
    show StableHlo.after hostOps0 (W0 m ρ c) (Proc.devRef .tc main_arg5) = _
    after_results_simp
    all_goals rfl
  a6 := by
    show StableHlo.after hostOps0 (W0 m ρ c) (Proc.devRef .tc main_arg6) = _
    after_results_simp
    all_goals rfl
  a7 := by
    show StableHlo.after hostOps0 (W0 m ρ c) (Proc.devRef .tc main_arg7) = _
    after_results_simp
    all_goals rfl
  a8 := by
    show StableHlo.after hostOps0 (W0 m ρ c) (Proc.devRef .tc main_arg8) = _
    after_results_simp
    all_goals rfl
  a10 := by
    show StableHlo.after hostOps0 (W0 m ρ c) (Proc.devRef .tc main_arg10) = _
    after_results_simp
    all_goals rfl

/-! ## The first layer -/

set_option maxHeartbeats 4000000 in
/-- What the first region stages: the node features, their neighbour sum, the first layer's weights and bias rows. -/
theorem V1_arg0 (c : Dev nD) : V1 m ρ c main_arg0 = (m ((c : Thread nD τ).loc main_arg0)) := by
  show StableHlo.after hostOps0 (W0 m ρ c) (Proc.devRef .tc main_arg0) = _
  after_results_simp
  all_goals rfl

set_option maxHeartbeats 4000000 in
theorem V1_v13 (c : Dev nD) : V1 m ρ c main_v13 = aggOf (m ((c : Thread nD τ).loc main_arg0)) (edgeRow0 (m ((c : Thread nD τ).loc main_arg9))) (edgeRow1 (m ((c : Thread nD τ).loc main_arg9))) := by
  show StableHlo.after hostOps0 (W0 m ρ c) (Proc.devRef .tc main_v13) = _
  after_results_simp
  all_goals rfl

set_option maxHeartbeats 4000000 in
theorem V1_v15 (c : Dev nD) : V1 m ρ c main_v15 = wAt0 (m ((c : Thread nD τ).loc main_arg1)) := by
  show StableHlo.after hostOps0 (W0 m ρ c) (Proc.devRef .tc main_v15) = _
  after_results_simp
  all_goals rfl

set_option maxHeartbeats 4000000 in
theorem V1_v22 (c : Dev nD) : V1 m ρ c main_v22 = rowOf (bAt0 (m ((c : Thread nD τ).loc main_arg2))) := by
  show StableHlo.after hostOps0 (W0 m ρ c) (Proc.devRef .tc main_v22) = _
  after_results_simp
  all_goals rfl

set_option maxHeartbeats 4000000 in
theorem V1_v19 (c : Dev nD) : V1 m ρ c main_v19 = wAt0 (m ((c : Thread nD τ).loc main_arg3)) := by
  show StableHlo.after hostOps0 (W0 m ρ c) (Proc.devRef .tc main_v19) = _
  after_results_simp
  all_goals rfl

set_option maxHeartbeats 4000000 in
theorem V1_v23 (c : Dev nD) : V1 m ρ c main_v23 = rowOf (bAt0 (m ((c : Thread nD τ).loc main_arg4))) := by
  show StableHlo.after hostOps0 (W0 m ρ c) (Proc.devRef .tc main_v23) = _
  after_results_simp
  all_goals rfl

/-- The first layer's region leaves the node features after 1 layer. -/
theorem W2_v24 (c : Dev nD) : W2 m ρ c (Proc.devRef .tc main_v24) = (feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) := by
  refine (W2_arr m ρ c 6).trans ((Layer0.final (V1 m ρ) c).trans ?_)
  show layerFn (V1 m ρ c main_v15) (V1 m ρ c main_v22) (V1 m ρ c main_v19) (V1 m ρ c main_v23) (V1 m ρ c main_arg0) (V1 m ρ c main_v13) = _
  rw [V1_v15 m ρ c, V1_v22 m ρ c, V1_v19 m ρ c, V1_v23 m ρ c, V1_arg0 m ρ c, V1_v13 m ρ c]
  rfl

/-- The carried buffers after the region: none is one of its arrays. -/
theorem kept2 (c : Dev nD) : Kept m c (W2 m ρ c) where
  v1 := (W2_of_ne m ρ c main_v1 (by decide)).trans (kept1 m ρ c).v1
  v3 := (W2_of_ne m ρ c main_v3 (by decide)).trans (kept1 m ρ c).v3
  a1 := (W2_of_ne m ρ c main_arg1 (by decide)).trans (kept1 m ρ c).a1
  a2 := (W2_of_ne m ρ c main_arg2 (by decide)).trans (kept1 m ρ c).a2
  a3 := (W2_of_ne m ρ c main_arg3 (by decide)).trans (kept1 m ρ c).a3
  a4 := (W2_of_ne m ρ c main_arg4 (by decide)).trans (kept1 m ρ c).a4
  a5 := (W2_of_ne m ρ c main_arg5 (by decide)).trans (kept1 m ρ c).a5
  a6 := (W2_of_ne m ρ c main_arg6 (by decide)).trans (kept1 m ρ c).a6
  a7 := (W2_of_ne m ρ c main_arg7 (by decide)).trans (kept1 m ρ c).a7
  a8 := (W2_of_ne m ρ c main_arg8 (by decide)).trans (kept1 m ρ c).a8
  a10 := (W2_of_ne m ρ c main_arg10 (by decide)).trans (kept1 m ρ c).a10

/-! ## The second layer -/

set_option maxHeartbeats 16000000 in
/-- The carried buffers after the hostOps1 stretch: it writes none of them. -/
theorem kept3 (c : Dev nD) : Kept m c (W3 m ρ c) where
  v1 := (show StableHlo.after hostOps1 (W2 m ρ c) (Proc.devRef .tc main_v1) = W2 m ρ c (Proc.devRef .tc main_v1) from by
    after_results_simp
    all_goals rfl).trans (kept2 m ρ c).v1
  v3 := (show StableHlo.after hostOps1 (W2 m ρ c) (Proc.devRef .tc main_v3) = W2 m ρ c (Proc.devRef .tc main_v3) from by
    after_results_simp
    all_goals rfl).trans (kept2 m ρ c).v3
  a1 := (show StableHlo.after hostOps1 (W2 m ρ c) (Proc.devRef .tc main_arg1) = W2 m ρ c (Proc.devRef .tc main_arg1) from by
    after_results_simp
    all_goals rfl).trans (kept2 m ρ c).a1
  a2 := (show StableHlo.after hostOps1 (W2 m ρ c) (Proc.devRef .tc main_arg2) = W2 m ρ c (Proc.devRef .tc main_arg2) from by
    after_results_simp
    all_goals rfl).trans (kept2 m ρ c).a2
  a3 := (show StableHlo.after hostOps1 (W2 m ρ c) (Proc.devRef .tc main_arg3) = W2 m ρ c (Proc.devRef .tc main_arg3) from by
    after_results_simp
    all_goals rfl).trans (kept2 m ρ c).a3
  a4 := (show StableHlo.after hostOps1 (W2 m ρ c) (Proc.devRef .tc main_arg4) = W2 m ρ c (Proc.devRef .tc main_arg4) from by
    after_results_simp
    all_goals rfl).trans (kept2 m ρ c).a4
  a5 := (show StableHlo.after hostOps1 (W2 m ρ c) (Proc.devRef .tc main_arg5) = W2 m ρ c (Proc.devRef .tc main_arg5) from by
    after_results_simp
    all_goals rfl).trans (kept2 m ρ c).a5
  a6 := (show StableHlo.after hostOps1 (W2 m ρ c) (Proc.devRef .tc main_arg6) = W2 m ρ c (Proc.devRef .tc main_arg6) from by
    after_results_simp
    all_goals rfl).trans (kept2 m ρ c).a6
  a7 := (show StableHlo.after hostOps1 (W2 m ρ c) (Proc.devRef .tc main_arg7) = W2 m ρ c (Proc.devRef .tc main_arg7) from by
    after_results_simp
    all_goals rfl).trans (kept2 m ρ c).a7
  a8 := (show StableHlo.after hostOps1 (W2 m ρ c) (Proc.devRef .tc main_arg8) = W2 m ρ c (Proc.devRef .tc main_arg8) from by
    after_results_simp
    all_goals rfl).trans (kept2 m ρ c).a8
  a10 := (show StableHlo.after hostOps1 (W2 m ρ c) (Proc.devRef .tc main_arg10) = W2 m ρ c (Proc.devRef .tc main_arg10) from by
    after_results_simp
    all_goals rfl).trans (kept2 m ρ c).a10

set_option maxHeartbeats 4000000 in
theorem V3_v24 (c : Dev nD) : V3 m ρ c main_v24 = (feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) :=
  (show StableHlo.after hostOps1 (W2 m ρ c) (Proc.devRef .tc main_v24) = W2 m ρ c (Proc.devRef .tc main_v24) from by
    after_results_simp
    all_goals rfl).trans (W2_v24 m ρ c)

set_option maxHeartbeats 4000000 in
theorem V3_v34 (c : Dev nD) : V3 m ρ c main_v34 = aggOf (feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) (edgeRow0 (m ((c : Thread nD τ).loc main_arg9))) (edgeRow1 (m ((c : Thread nD τ).loc main_arg9))) := by
  show StableHlo.after hostOps1 (W2 m ρ c) (Proc.devRef .tc main_v34) = _
  after_results_simp
  all_goals rw [W2_v24 m ρ c, (kept2 m ρ c).v1, (kept2 m ρ c).v3]
  all_goals rfl

set_option maxHeartbeats 4000000 in
theorem V3_v36 (c : Dev nD) : V3 m ρ c main_v36 = wAt1 (m ((c : Thread nD τ).loc main_arg1)) := by
  show StableHlo.after hostOps1 (W2 m ρ c) (Proc.devRef .tc main_v36) = _
  after_results_simp
  all_goals rw [(kept2 m ρ c).a1]
  all_goals rfl

set_option maxHeartbeats 4000000 in
theorem V3_v43 (c : Dev nD) : V3 m ρ c main_v43 = rowOf (bAt1 (m ((c : Thread nD τ).loc main_arg2))) := by
  show StableHlo.after hostOps1 (W2 m ρ c) (Proc.devRef .tc main_v43) = _
  after_results_simp
  all_goals rw [(kept2 m ρ c).a2]
  all_goals rfl

set_option maxHeartbeats 4000000 in
theorem V3_v40 (c : Dev nD) : V3 m ρ c main_v40 = wAt1 (m ((c : Thread nD τ).loc main_arg3)) := by
  show StableHlo.after hostOps1 (W2 m ρ c) (Proc.devRef .tc main_v40) = _
  after_results_simp
  all_goals rw [(kept2 m ρ c).a3]
  all_goals rfl

set_option maxHeartbeats 4000000 in
theorem V3_v44 (c : Dev nD) : V3 m ρ c main_v44 = rowOf (bAt1 (m ((c : Thread nD τ).loc main_arg4))) := by
  show StableHlo.after hostOps1 (W2 m ρ c) (Proc.devRef .tc main_v44) = _
  after_results_simp
  all_goals rw [(kept2 m ρ c).a4]
  all_goals rfl

/-- The second layer's region leaves the node features after 2 layers. -/
theorem W4_v45 (c : Dev nD) : W4 m ρ c (Proc.devRef .tc main_v45) = (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) := by
  refine (W4_arr m ρ c 6).trans ((Layer1.final (V3 m ρ) c).trans ?_)
  show layerFn (V3 m ρ c main_v36) (V3 m ρ c main_v43) (V3 m ρ c main_v40) (V3 m ρ c main_v44) (V3 m ρ c main_v24) (V3 m ρ c main_v34) = _
  rw [V3_v36 m ρ c, V3_v43 m ρ c, V3_v40 m ρ c, V3_v44 m ρ c, V3_v24 m ρ c, V3_v34 m ρ c]
  rfl

/-- The carried buffers after the region: none is one of its arrays. -/
theorem kept4 (c : Dev nD) : Kept m c (W4 m ρ c) where
  v1 := (W4_of_ne m ρ c main_v1 (by decide)).trans (kept3 m ρ c).v1
  v3 := (W4_of_ne m ρ c main_v3 (by decide)).trans (kept3 m ρ c).v3
  a1 := (W4_of_ne m ρ c main_arg1 (by decide)).trans (kept3 m ρ c).a1
  a2 := (W4_of_ne m ρ c main_arg2 (by decide)).trans (kept3 m ρ c).a2
  a3 := (W4_of_ne m ρ c main_arg3 (by decide)).trans (kept3 m ρ c).a3
  a4 := (W4_of_ne m ρ c main_arg4 (by decide)).trans (kept3 m ρ c).a4
  a5 := (W4_of_ne m ρ c main_arg5 (by decide)).trans (kept3 m ρ c).a5
  a6 := (W4_of_ne m ρ c main_arg6 (by decide)).trans (kept3 m ρ c).a6
  a7 := (W4_of_ne m ρ c main_arg7 (by decide)).trans (kept3 m ρ c).a7
  a8 := (W4_of_ne m ρ c main_arg8 (by decide)).trans (kept3 m ρ c).a8
  a10 := (W4_of_ne m ρ c main_arg10 (by decide)).trans (kept3 m ρ c).a10

/-! ## The third layer -/

set_option maxHeartbeats 16000000 in
/-- The carried buffers after the hostOps2 stretch: it writes none of them. -/
theorem kept5 (c : Dev nD) : Kept m c (W5 m ρ c) where
  v1 := (show StableHlo.after hostOps2 (W4 m ρ c) (Proc.devRef .tc main_v1) = W4 m ρ c (Proc.devRef .tc main_v1) from by
    after_results_simp
    all_goals rfl).trans (kept4 m ρ c).v1
  v3 := (show StableHlo.after hostOps2 (W4 m ρ c) (Proc.devRef .tc main_v3) = W4 m ρ c (Proc.devRef .tc main_v3) from by
    after_results_simp
    all_goals rfl).trans (kept4 m ρ c).v3
  a1 := (show StableHlo.after hostOps2 (W4 m ρ c) (Proc.devRef .tc main_arg1) = W4 m ρ c (Proc.devRef .tc main_arg1) from by
    after_results_simp
    all_goals rfl).trans (kept4 m ρ c).a1
  a2 := (show StableHlo.after hostOps2 (W4 m ρ c) (Proc.devRef .tc main_arg2) = W4 m ρ c (Proc.devRef .tc main_arg2) from by
    after_results_simp
    all_goals rfl).trans (kept4 m ρ c).a2
  a3 := (show StableHlo.after hostOps2 (W4 m ρ c) (Proc.devRef .tc main_arg3) = W4 m ρ c (Proc.devRef .tc main_arg3) from by
    after_results_simp
    all_goals rfl).trans (kept4 m ρ c).a3
  a4 := (show StableHlo.after hostOps2 (W4 m ρ c) (Proc.devRef .tc main_arg4) = W4 m ρ c (Proc.devRef .tc main_arg4) from by
    after_results_simp
    all_goals rfl).trans (kept4 m ρ c).a4
  a5 := (show StableHlo.after hostOps2 (W4 m ρ c) (Proc.devRef .tc main_arg5) = W4 m ρ c (Proc.devRef .tc main_arg5) from by
    after_results_simp
    all_goals rfl).trans (kept4 m ρ c).a5
  a6 := (show StableHlo.after hostOps2 (W4 m ρ c) (Proc.devRef .tc main_arg6) = W4 m ρ c (Proc.devRef .tc main_arg6) from by
    after_results_simp
    all_goals rfl).trans (kept4 m ρ c).a6
  a7 := (show StableHlo.after hostOps2 (W4 m ρ c) (Proc.devRef .tc main_arg7) = W4 m ρ c (Proc.devRef .tc main_arg7) from by
    after_results_simp
    all_goals rfl).trans (kept4 m ρ c).a7
  a8 := (show StableHlo.after hostOps2 (W4 m ρ c) (Proc.devRef .tc main_arg8) = W4 m ρ c (Proc.devRef .tc main_arg8) from by
    after_results_simp
    all_goals rfl).trans (kept4 m ρ c).a8
  a10 := (show StableHlo.after hostOps2 (W4 m ρ c) (Proc.devRef .tc main_arg10) = W4 m ρ c (Proc.devRef .tc main_arg10) from by
    after_results_simp
    all_goals rfl).trans (kept4 m ρ c).a10

set_option maxHeartbeats 4000000 in
theorem V5_v45 (c : Dev nD) : V5 m ρ c main_v45 = (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) :=
  (show StableHlo.after hostOps2 (W4 m ρ c) (Proc.devRef .tc main_v45) = W4 m ρ c (Proc.devRef .tc main_v45) from by
    after_results_simp
    all_goals rfl).trans (W4_v45 m ρ c)

set_option maxHeartbeats 4000000 in
theorem V5_v55 (c : Dev nD) : V5 m ρ c main_v55 = aggOf (feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) (edgeRow0 (m ((c : Thread nD τ).loc main_arg9))) (edgeRow1 (m ((c : Thread nD τ).loc main_arg9))) := by
  show StableHlo.after hostOps2 (W4 m ρ c) (Proc.devRef .tc main_v55) = _
  after_results_simp
  all_goals rw [W4_v45 m ρ c, (kept4 m ρ c).v1, (kept4 m ρ c).v3]
  all_goals rfl

set_option maxHeartbeats 4000000 in
theorem V5_v57 (c : Dev nD) : V5 m ρ c main_v57 = wAt2 (m ((c : Thread nD τ).loc main_arg1)) := by
  show StableHlo.after hostOps2 (W4 m ρ c) (Proc.devRef .tc main_v57) = _
  after_results_simp
  all_goals rw [(kept4 m ρ c).a1]
  all_goals rfl

set_option maxHeartbeats 4000000 in
theorem V5_v64 (c : Dev nD) : V5 m ρ c main_v64 = rowOf (bAt2 (m ((c : Thread nD τ).loc main_arg2))) := by
  show StableHlo.after hostOps2 (W4 m ρ c) (Proc.devRef .tc main_v64) = _
  after_results_simp
  all_goals rw [(kept4 m ρ c).a2]
  all_goals rfl

set_option maxHeartbeats 4000000 in
theorem V5_v61 (c : Dev nD) : V5 m ρ c main_v61 = wAt2 (m ((c : Thread nD τ).loc main_arg3)) := by
  show StableHlo.after hostOps2 (W4 m ρ c) (Proc.devRef .tc main_v61) = _
  after_results_simp
  all_goals rw [(kept4 m ρ c).a3]
  all_goals rfl

set_option maxHeartbeats 4000000 in
theorem V5_v65 (c : Dev nD) : V5 m ρ c main_v65 = rowOf (bAt2 (m ((c : Thread nD τ).loc main_arg4))) := by
  show StableHlo.after hostOps2 (W4 m ρ c) (Proc.devRef .tc main_v65) = _
  after_results_simp
  all_goals rw [(kept4 m ρ c).a4]
  all_goals rfl

/-- The third layer's region leaves the node features after 3 layers. -/
theorem W6_v66 (c : Dev nD) : W6 m ρ c (Proc.devRef .tc main_v66) = (feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) := by
  refine (W6_arr m ρ c 6).trans ((Layer2.final (V5 m ρ) c).trans ?_)
  show layerFn (V5 m ρ c main_v57) (V5 m ρ c main_v64) (V5 m ρ c main_v61) (V5 m ρ c main_v65) (V5 m ρ c main_v45) (V5 m ρ c main_v55) = _
  rw [V5_v57 m ρ c, V5_v64 m ρ c, V5_v61 m ρ c, V5_v65 m ρ c, V5_v45 m ρ c, V5_v55 m ρ c]
  rfl

/-- The carried buffers after the region: none is one of its arrays. -/
theorem kept6 (c : Dev nD) : Kept m c (W6 m ρ c) where
  v1 := (W6_of_ne m ρ c main_v1 (by decide)).trans (kept5 m ρ c).v1
  v3 := (W6_of_ne m ρ c main_v3 (by decide)).trans (kept5 m ρ c).v3
  a1 := (W6_of_ne m ρ c main_arg1 (by decide)).trans (kept5 m ρ c).a1
  a2 := (W6_of_ne m ρ c main_arg2 (by decide)).trans (kept5 m ρ c).a2
  a3 := (W6_of_ne m ρ c main_arg3 (by decide)).trans (kept5 m ρ c).a3
  a4 := (W6_of_ne m ρ c main_arg4 (by decide)).trans (kept5 m ρ c).a4
  a5 := (W6_of_ne m ρ c main_arg5 (by decide)).trans (kept5 m ρ c).a5
  a6 := (W6_of_ne m ρ c main_arg6 (by decide)).trans (kept5 m ρ c).a6
  a7 := (W6_of_ne m ρ c main_arg7 (by decide)).trans (kept5 m ρ c).a7
  a8 := (W6_of_ne m ρ c main_arg8 (by decide)).trans (kept5 m ρ c).a8
  a10 := (W6_of_ne m ρ c main_arg10 (by decide)).trans (kept5 m ρ c).a10

/-! ## The pooling and the head -/

set_option maxHeartbeats 4000000 in
theorem V7_v69 (c : Dev nD) : V7 m ρ c main_v69 = poolOf (feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9))) (m ((c : Thread nD τ).loc main_arg10)) := by
  show StableHlo.after hostOps3 (W6 m ρ c) (Proc.devRef .tc main_v69) = _
  after_results_simp
  all_goals rw [W6_v66 m ρ c, (kept6 m ρ c).a10]
  all_goals rfl

set_option maxHeartbeats 4000000 in
theorem V7_arg5 (c : Dev nD) : V7 m ρ c main_arg5 = (m ((c : Thread nD τ).loc main_arg5)) := by
  show StableHlo.after hostOps3 (W6 m ρ c) (Proc.devRef .tc main_arg5) = _
  after_results_simp
  all_goals rw [(kept6 m ρ c).a5]
  all_goals rfl

set_option maxHeartbeats 4000000 in
theorem V7_v70 (c : Dev nD) : V7 m ρ c main_v70 = rowOf (m ((c : Thread nD τ).loc main_arg6)) := by
  show StableHlo.after hostOps3 (W6 m ρ c) (Proc.devRef .tc main_v70) = _
  after_results_simp
  all_goals rw [(kept6 m ρ c).a6]
  all_goals rfl

set_option maxHeartbeats 4000000 in
theorem V7_arg7 (c : Dev nD) : V7 m ρ c main_arg7 = (m ((c : Thread nD τ).loc main_arg7)) := by
  show StableHlo.after hostOps3 (W6 m ρ c) (Proc.devRef .tc main_arg7) = _
  after_results_simp
  all_goals rw [(kept6 m ρ c).a7]
  all_goals rfl

set_option maxHeartbeats 4000000 in
theorem V7_v71 (c : Dev nD) : V7 m ρ c main_v71 = rowOf10 (m ((c : Thread nD τ).loc main_arg8)) := by
  show StableHlo.after hostOps3 (W6 m ρ c) (Proc.devRef .tc main_v71) = _
  after_results_simp
  all_goals rw [(kept6 m ρ c).a8]
  all_goals rfl

/-- THE RESULT: the last region leaves the network function of the launch arguments in the result buffer. -/
theorem result (c : Dev nD) : W8 m ρ c (Proc.devRef .tc main_v72)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg5)) (m ((c : Thread nD τ).loc main_arg6)) (m ((c : Thread nD τ).loc main_arg7)) (m ((c : Thread nD τ).loc main_arg8)) (m ((c : Thread nD τ).loc main_arg10)) := by
  refine (W8_arr m ρ c 5).trans ((Head.final (V7 m ρ) c).trans ?_)
  show headFn (V7 m ρ c main_arg5) (V7 m ρ c main_v70) (V7 m ρ c main_arg7) (V7 m ρ c main_v71) (V7 m ρ c main_v69) = _
  rw [V7_arg5 m ρ c, V7_v70 m ρ c, V7_arg7 m ρ c, V7_v71 m ρ c, V7_v69 m ρ c]
  rfl

end Cert.KernelIdeal.NetValue

end
-- ==== Proof.HostLayer.lean ====
/-
  The host's spelling of a layer and of the head are the layer function and the head function.

  A layer written with whole-array host operations —  max(max((x + agg) · W1 + b1, 0) · W2 + b2, 0)  with the
  products as dot_general and each bias vector laid as a row and broadcast down the rows — has at (p, j) the
  perceptron of row p of x + agg: the layer function. The head likewise, without the outer rectifier.
-/
import proofs.«165273_j10350871184011_1_alg».proof.Proof.Spec

noncomputable section

namespace Cert.Gin

open Cert.KernelIdeal Idealize.ShloMosaic Idealize.ShloMosaic.ValueIdx Cert.MlpRows

/-- A layer in the host's spelling. -/
theorem host_layer (D : DotDims ⟨2, ![50000, 128]⟩ ⟨2, ![128, 128]⟩ ⟨2, ![50000, 128]⟩) (hD : D = DotDims.plain 50000 128 128)
    (x agg : FVec Ideal S50000x128 .f32) (W1 : FVec Ideal S128x128 .f32) (b1 : FVec Ideal S128 .f32)
    (W2 : FVec Ideal S128x128 .f32) (b2 : FVec Ideal S128 .f32)
    (h1 : (⟨1, ![128]⟩ : Shape).BroadcastsInDim ⟨2, ![1, 128]⟩ ![1])
    (h2 : (⟨2, ![1, 128]⟩ : Shape).BroadcastsInDim ⟨2, ![50000, 128]⟩ ![0, 1])
    (hz : (⟨0, ![]⟩ : Shape).BroadcastsInDim ⟨2, ![50000, 128]⟩ ![]) :
    maximumf
        (addf (Host.dotGeneral D none
            (maximumf (addf (Host.dotGeneral D none (addf x agg) W1)
                (broadcastInDim ⟨2, ![50000, 128]⟩ ![0, 1] h2 (broadcastInDim ⟨2, ![1, 128]⟩ ![1] h1 b1)))
              (broadcastInDim ⟨2, ![50000, 128]⟩ ![] hz (constant (F := Ideal) ⟨0, ![]⟩ .f32 0x00000000#32)))
            W2)
          (broadcastInDim ⟨2, ![50000, 128]⟩ ![0, 1] h2 (broadcastInDim ⟨2, ![1, 128]⟩ ![1] h1 b2)))
        (broadcastInDim ⟨2, ![50000, 128]⟩ ![] hz (constant (F := Ideal) ⟨0, ![]⟩ .f32 0x00000000#32))
      = layerFn W1 (rowOf b1) W2 (rowOf b2) x agg := by
  subst hD
  funext i
  obtain ⟨p, j, rfl⟩ : ∃ (p : Fin 50000) (j : Fin 128), i = ix2 p j := ⟨i 0, i 1, eq_ix2 i⟩
  rw [maximumf_apply, host_mlp2_apply, bcastScalar_apply]
  unfold layerFn
  simp only [rowOf, rowOf_apply]
  rfl

/-- The head in the host's spelling. -/
theorem host_head (D1 : DotDims ⟨2, ![500, 128]⟩ ⟨2, ![128, 128]⟩ ⟨2, ![500, 128]⟩) (hD1 : D1 = DotDims.plain 500 128 128)
    (D2 : DotDims ⟨2, ![500, 128]⟩ ⟨2, ![128, 10]⟩ ⟨2, ![500, 10]⟩) (hD2 : D2 = DotDims.plain 500 128 10)
    (g : FVec Ideal S500x128 .f32) (W1 : FVec Ideal S128x128 .f32) (b1 : FVec Ideal S128 .f32)
    (W2 : FVec Ideal S128x10 .f32) (b2 : FVec Ideal S10 .f32)
    (h11 : (⟨1, ![128]⟩ : Shape).BroadcastsInDim ⟨2, ![1, 128]⟩ ![1])
    (h12 : (⟨2, ![1, 128]⟩ : Shape).BroadcastsInDim ⟨2, ![500, 128]⟩ ![0, 1])
    (hz : (⟨0, ![]⟩ : Shape).BroadcastsInDim ⟨2, ![500, 128]⟩ ![])
    (h21 : (⟨1, ![10]⟩ : Shape).BroadcastsInDim ⟨2, ![1, 10]⟩ ![1])
    (h22 : (⟨2, ![1, 10]⟩ : Shape).BroadcastsInDim ⟨2, ![500, 10]⟩ ![0, 1]) :
    addf (Host.dotGeneral D2 none
          (maximumf (addf (Host.dotGeneral D1 none g W1)
              (broadcastInDim ⟨2, ![500, 128]⟩ ![0, 1] h12 (broadcastInDim ⟨2, ![1, 128]⟩ ![1] h11 b1)))
            (broadcastInDim ⟨2, ![500, 128]⟩ ![] hz (constant (F := Ideal) ⟨0, ![]⟩ .f32 0x00000000#32)))
          W2)
        (broadcastInDim ⟨2, ![500, 10]⟩ ![0, 1] h22 (broadcastInDim ⟨2, ![1, 10]⟩ ![1] h21 b2))
      = headFn W1 (rowOf b1) W2 (rowOf10 b2) g := by
  subst hD1 hD2
  funext i
  obtain ⟨p, j, rfl⟩ : ∃ (p : Fin 500) (j : Fin 10), i = ix2 p j := ⟨i 0, i 1, eq_ix2 i⟩
  rw [host_mlp2_apply]
  unfold headFn
  simp only [rowOf, rowOf10, rowOf_apply]

end Cert.Gin

end
-- ==== Proof.RefValue.lean ====
/-
  The reference's result is the network function of its arguments.

  The reference's run ends at a composition of whole-array host operations. Read stage by stage: the features
  after each layer are the layer function of the features before it and of their neighbour sum (the host's
  spelling of a layer), the neighbour sums and the pooling are the very gather and scatter operations the
  network function is written with, and the last stages are the host's spelling of the head.
-/
import proofs.«165273_j10350871184011_1_alg».proof.Proof.Gen.ReferenceIdeal.Read
import proofs.«165273_j10350871184011_1_alg».proof.Proof.HostLayer

set_option maxRecDepth 16384

noncomputable section

namespace Cert.ReferenceIdeal.NetValue

open Cert.ReferenceIdeal Cert.ReferenceIdeal.Gen Cert.ReferenceIdeal.Read Cert.Gin
open Idealize.ShloMosaic

variable (x0 : (⟨S50000x128, .f32⟩ : BufTy).Contents (Elt Ideal)) (x1 : (⟨S3x128x128, .f32⟩ : BufTy).Contents (Elt Ideal))
    (x2 : (⟨S3x128, .f32⟩ : BufTy).Contents (Elt Ideal)) (x3 : (⟨S3x128x128, .f32⟩ : BufTy).Contents (Elt Ideal))
    (x4 : (⟨S3x128, .f32⟩ : BufTy).Contents (Elt Ideal)) (x9 : (⟨S2x800000, .i32⟩ : BufTy).Contents (Elt Ideal))

/-- The features after the first layer. -/
theorem feat1_eq : val_main_v34 (F := Ideal) x0 x1 x2 x3 x4 x9 = feat1 x0 x1 x2 x3 x4 x9 :=
  (host_layer _ rfl x0 (val_main_v13 (F := Ideal) x0 x9) (val_main_v16 (F := Ideal) x1) (val_main_v19 (F := Ideal) x2)
    (val_main_v26 (F := Ideal) x3) (val_main_v29 (F := Ideal) x4) _ _ _).trans rfl

/-- The second neighbour sum is the neighbour sum of the features after the first layer. -/
theorem agg2_eq : val_main_v44 (F := Ideal) x0 x1 x2 x3 x4 x9 = aggOf (val_main_v34 (F := Ideal) x0 x1 x2 x3 x4 x9) (edgeRow0 x9) (edgeRow1 x9) := rfl

/-- The features after the second layer. -/
theorem feat2_eq : val_main_v65 (F := Ideal) x0 x1 x2 x3 x4 x9 = feat2 x0 x1 x2 x3 x4 x9 := by
  refine (host_layer _ rfl (val_main_v34 (F := Ideal) x0 x1 x2 x3 x4 x9) (val_main_v44 (F := Ideal) x0 x1 x2 x3 x4 x9) (val_main_v47 (F := Ideal) x1)
    (val_main_v50 (F := Ideal) x2) (val_main_v57 (F := Ideal) x3) (val_main_v60 (F := Ideal) x4) _ _ _).trans ?_
  rw [agg2_eq, feat1_eq]
  rfl

/-- The third neighbour sum is the neighbour sum of the features after the second layer. -/
theorem agg3_eq : val_main_v75 (F := Ideal) x0 x1 x2 x3 x4 x9 = aggOf (val_main_v65 (F := Ideal) x0 x1 x2 x3 x4 x9) (edgeRow0 x9) (edgeRow1 x9) := rfl

/-- The features after the third layer. -/
theorem feat3_eq : val_main_v96 (F := Ideal) x0 x1 x2 x3 x4 x9 = feat3 x0 x1 x2 x3 x4 x9 := by
  refine (host_layer _ rfl (val_main_v65 (F := Ideal) x0 x1 x2 x3 x4 x9) (val_main_v75 (F := Ideal) x0 x1 x2 x3 x4 x9) (val_main_v78 (F := Ideal) x1)
    (val_main_v81 (F := Ideal) x2) (val_main_v88 (F := Ideal) x3) (val_main_v91 (F := Ideal) x4) _ _ _).trans ?_
  rw [agg3_eq, feat2_eq]
  rfl

variable (x5 : (⟨S128x128, .f32⟩ : BufTy).Contents (Elt Ideal)) (x6 : (⟨S128, .f32⟩ : BufTy).Contents (Elt Ideal))
  (x7 : (⟨S128x10, .f32⟩ : BufTy).Contents (Elt Ideal)) (x8 : (⟨S10, .f32⟩ : BufTy).Contents (Elt Ideal))
  (x10 : (⟨S50000, .i32⟩ : BufTy).Contents (Elt Ideal))

/-- The pooled features are the pooling of the features after the third layer. -/
theorem pool_eq : val_main_v99 (F := Ideal) x0 x1 x2 x3 x4 x9 x10 = poolOf (val_main_v96 (F := Ideal) x0 x1 x2 x3 x4 x9) x10 := rfl

/-- THE REFERENCE'S RESULT is the network function of its arguments. -/
theorem net_eq : val_main_v109 (F := Ideal) x0 x1 x2 x3 x4 x5 x6 x7 x8 x9 x10 = net x0 x1 x2 x3 x4 x9 x5 x6 x7 x8 x10 := by
  refine (host_head _ rfl _ rfl (val_main_v99 (F := Ideal) x0 x1 x2 x3 x4 x9 x10) x5 x6 x7 x8 _ _ _ _ _).trans ?_
  rw [pool_eq, feat3_eq]
  rfl

end Cert.ReferenceIdeal.NetValue

end
-- ==== Proof.lean ====
/-
  The kernel computes the reference's graph network, as extended reals.

  Both programs are three GIN layers — each a node's features plus the sum of its in-neighbours' features, put
  through a two-layer perceptron and a rectifier —, a sum of node features per graph, and a two-layer perceptron
  head. They gather and scatter with the same host operations; they differ only in how the dense part is
  arranged: the kernel runs each layer's perceptron on blocks of 5000 rows with matrix-unit products and the
  biases as one-row matrices, the reference on all 50000 rows at once with dot_general and broadcast bias
  vectors. A row of the perceptron's result depends on the same row of its input alone (Proof/LibMlpRows.lean),
  so the ten blocks of a layer's result are the rows of the whole-array result (Proof/Layer0…2.lean, Proof/Head.lean),
  and both programs end at ONE function of the eleven arguments, `Cert.Gin.net` (Proof/Spec.lean): the kernel by
  following its buffers through the four regions and the host stretches between them (Proof/KernelRun.lean,
  Proof/KernelValue.lean), the reference by reading its composed host operations (Proof/HostLayer.lean,
  Proof/RefValue.lean). No sum is re-ordered and nothing is distributed, so no input needs to be finite: the
  precondition is not used. The ideal pass rewrote nothing, so `preserves` has nothing to state.
-/
import proofs.«165273_j10350871184011_1_alg».proof.Defs
import proofs.«165273_j10350871184011_1_alg».proof.Proof.Gen.Kernel
import proofs.«165273_j10350871184011_1_alg».proof.Proof.Gen.Kernel.Frame
import proofs.«165273_j10350871184011_1_alg».proof.Proof.Gen.KernelIdeal
import proofs.«165273_j10350871184011_1_alg».proof.Proof.Gen.KernelIdeal.Frame
import proofs.«165273_j10350871184011_1_alg».proof.Proof.Gen.ReferenceIdeal
import proofs.«165273_j10350871184011_1_alg».proof.Proof.Gen.ReferenceIdeal.Run
import proofs.«165273_j10350871184011_1_alg».proof.Proof.Gen.ReferenceIdeal.Read
import proofs.«165273_j10350871184011_1_alg».proof.Proof.Gen.Pre_finite_inputs
import proofs.«165273_j10350871184011_1_alg».proof.Proof.KernelRun
import proofs.«165273_j10350871184011_1_alg».proof.Proof.KernelValue
import proofs.«165273_j10350871184011_1_alg».proof.Proof.RefValue
import Idealize.ShloMosaic.Adequacy
import Idealize.ShloMosaic.Init

noncomputable section

namespace Cert.Proof

open Idealize.ShloMosaic Idealize.SL.Sem

/-- The three programs run and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network function of the (agreeing) arguments in their result. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.NetValue.result m ρ c), (h c).2⟩)
      (Cert.KernelIdeal.NamedRun.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v109_eq, Cert.ReferenceIdeal.NetValue.net_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
